-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part5 {F : FTy → Type} [FloatOps F] (main_arg18 : FVec F S2048x1024 .f32) (main_arg19 : FVec F S2048x1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S2048x1024 .f32 := Host.absf main_arg18
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  main_v98

def fn_part4 {F : FTy → Type} [FloatOps F] (main_arg14 : FVec F S2048x2048 .f32) (main_arg15 : FVec F S2048x2048 .f32) (main_arg16 : FVec F S2048x1024 .f32) (main_arg17 : FVec F S2048x1024 .f32) (main_arg18 : FVec F S2048x1024 .f32) (main_arg19 : FVec F S2048x1024 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048x1024 .f32 := Host.absf main_arg16
  let main_cst_30 : FVec F S_ .f32 := constant S_ .f32 0x7F800000#32
  let main_v80 : FVec F S2048x1024 .f32 := broadcastInDim S2048x1024 ![] bcast_S_S2048x1024 main_cst_30
  let main_v81 : IVec S2048x1024 1 := cmpf .olt main_v79 main_v80
  let main_c_31 : IVec S_ 1 := constantI S_ 1 1#1
  let main_v82 : IVec S_ 1 := (fun x v => Host.reduce IntOp.andi x v reducesTo_S2048x1024_S_d0_1 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S2048 .f32) (main_arg12 : FVec F S2048x2048 .f32) (main_arg13 : FVec F S2048x2048 .f32) (main_arg14 : FVec F S2048x2048 .f32) (main_arg15 : FVec F S2048x2048 .f32) (main_arg16 : FVec F S2048x1024 .f32) (main_arg17 : FVec F S2048x1024 .f32) (main_arg18 : FVec F S2048x1024 .f32) (main_arg19 : FVec F S2048x1024 .f32) (main_v48 : IVec S_ 1) (main_v49 : FVec F S2048x1024 .f32) (main_v50 : FVec F S2048x1024 .f32) : IVec S_ 1 :=
  let main_v51 : IVec S2048x1024 1 := cmpf .olt main_v49 main_v50
  let main_c_19 : IVec S_ 1 := constantI S_ 1 1#1
  let main_v52 : IVec S_ 1 := (fun x v => Host.reduce IntOp.andi x v reducesTo_S2048x1024_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_arg19 main_v63 main_v67

def fn_part2 {F : FTy → Type} [FloatOps F] (main_arg7 : FVec F S2048 .f32) (main_arg8 : FVec F S2048x1024 .f32) (main_arg9 : FVec F S2048 .f32) (main_arg10 : FVec F S2048x1024 .f32) (main_arg11 : FVec F S2048 .f32) (main_arg12 : FVec F S2048x2048 .f32) (main_arg13 : FVec F S2048x2048 .f32) (main_arg14 : FVec F S2048x2048 .f32) (main_arg15 : FVec F S2048x2048 .f32) (main_arg16 : FVec F S2048x1024 .f32) (main_arg17 : FVec F S2048x1024 .f32) (main_arg18 : FVec F S2048x1024 .f32) (main_arg19 : FVec F S2048x1024 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x1024 .f32 := Host.absf main_arg10
  let main_cst_18 : FVec F S_ .f32 := constant S_ .f32 0x7F800000#32
  let main_v50 : FVec F S2048x1024 .f32 := broadcastInDim S2048x1024 ![] bcast_S_S2048x1024 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S2048x1024 .f32) (main_arg5 : FVec F S2048 .f32) (main_arg6 : FVec F S2048x1024 .f32) (main_arg7 : FVec F S2048 .f32) (main_arg8 : FVec F S2048x1024 .f32) (main_arg9 : FVec F S2048 .f32) (main_arg10 : FVec F S2048x1024 .f32) (main_arg11 : FVec F S2048 .f32) (main_arg12 : FVec F S2048x2048 .f32) (main_arg13 : FVec F S2048x2048 .f32) (main_arg14 : FVec F S2048x2048 .f32) (main_arg15 : FVec F S2048x2048 .f32) (main_arg16 : FVec F S2048x1024 .f32) (main_arg17 : FVec F S2048x1024 .f32) (main_arg18 : FVec F S2048x1024 .f32) (main_arg19 : FVec F S2048x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S4096x1024 .f32) (main_arg1 : FVec F S4096x2048 .f32) (main_arg2 : FVec F S4096x2048 .f32) (main_arg3 : FVec F S4096x1024 .f32) (main_arg4 : FVec F S2048x1024 .f32) (main_arg5 : FVec F S2048 .f32) (main_arg6 : FVec F S2048x1024 .f32) (main_arg7 : FVec F S2048 .f32) (main_arg8 : FVec F S2048x1024 .f32) (main_arg9 : FVec F S2048 .f32) (main_arg10 : FVec F S2048x1024 .f32) (main_arg11 : FVec F S2048 .f32) (main_arg12 : FVec F S2048x2048 .f32) (main_arg13 : FVec F S2048x2048 .f32) (main_arg14 : FVec F S2048x2048 .f32) (main_arg15 : FVec F S2048x2048 .f32) (main_arg16 : FVec F S2048x1024 .f32) (main_arg17 : FVec F S2048x1024 .f32) (main_arg18 : FVec F S2048x1024 .f32) (main_arg19 : FVec F S2048x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S512x512 : Shape := ⟨2, ![512, 512]⟩
abbrev S1x512 : Shape := ⟨2, ![1, 512]⟩

abbrev nBuf : Space → Nat
  | .hbm => 41
  | .vmem => 44
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S2048x1024, .f32⟩
  | .hbm, ⟨5, _⟩ => ⟨S2048, .f32⟩
  | .hbm, ⟨6, _⟩ => ⟨S2048x1024, .f32⟩
  | .hbm, ⟨7, _⟩ => ⟨S2048, .f32⟩
  | .hbm, ⟨8, _⟩ => ⟨S2048x1024, .f32⟩
  | .hbm, ⟨9, _⟩ => ⟨S2048, .f32⟩
  | .hbm, ⟨10, _⟩ => ⟨S2048x1024, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S4096x1024, .bf16⟩
  | .hbm, ⟨21, _⟩ => ⟨S4096x2048, .bf16⟩
  | .hbm, ⟨22, _⟩ => ⟨S4096x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .hbm, ⟨27, _⟩ => ⟨S2048x2048, .bf16⟩
  | .hbm, ⟨28, _⟩ => ⟨S2048x2048, .bf16⟩
  | .hbm, ⟨29, _⟩ => ⟨S2048x2048, .bf16⟩
  | .hbm, ⟨30, _⟩ => ⟨S2048x2048, .bf16⟩
  | .hbm, ⟨31, _⟩ => ⟨S2048x1024, .bf16⟩
  | .hbm, ⟨32, _⟩ => ⟨S2048x1024, .bf16⟩
  | .hbm, ⟨33, _⟩ => ⟨S2048x1024, .bf16⟩
  | .hbm, ⟨34, _⟩ => ⟨S2048x1024, .bf16⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S4096x2048, .f32⟩
  | .hbm, ⟨40, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S1x512, .f32⟩
  | .local _ .vmem, ⟨15, _⟩ => ⟨S1x512, .f32⟩
  | .local _ .vmem, ⟨16, _⟩ => ⟨S512x1024, .bf16⟩
  | .local _ .vmem, ⟨17, _⟩ => ⟨S512x1024, .bf16⟩
  | .local _ .vmem, ⟨18, _⟩ => ⟨S1x512, .f32⟩
  | .local _ .vmem, ⟨19, _⟩ => ⟨S1x512, .f32⟩
  | .local _ .vmem, ⟨20, _⟩ => ⟨S512x1024, .bf16⟩
  | .local _ .vmem, ⟨21, _⟩ => ⟨S512x1024, .bf16⟩
  | .local _ .vmem, ⟨22, _⟩ => ⟨S1x512, .f32⟩
  | .local _ .vmem, ⟨23, _⟩ => ⟨S1x512, .f32⟩
  | .local _ .vmem, ⟨24, _⟩ => ⟨S512x2048, .bf16⟩
  | .local _ .vmem, ⟨25, _⟩ => ⟨S512x2048, .bf16⟩
  | .local _ .vmem, ⟨26, _⟩ => ⟨S512x2048, .bf16⟩
  | .local _ .vmem, ⟨27, _⟩ => ⟨S512x2048, .bf16⟩
  | .local _ .vmem, ⟨28, _⟩ => ⟨S512x2048, .bf16⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x512, .f32⟩
  | .local _ .vmem, ⟨41, _⟩ => ⟨S512x512, .f32⟩
  | .local _ .vmem, ⟨42, _⟩ => ⟨S512x512, .f32⟩
  | .local _ .vmem, ⟨43, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

class Facts₀ : Prop where
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S512x1024_S512x512_1_1_0_0_n_n_wf : DotDims.WF S512x1024 S512x1024 S512x512 [1] [1] [0] [0] [] []
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .bf16 = 32 ∨ (Rect.block (s := S2048x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S2048x1024.size a
  hwx0_6 : ∀ i : grid0.Coords, EltTy.bits .bf16 = 32 ∨ (Rect.block (s := S2048x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S2048x1024.size a
  hwx0_8 : ∀ i : grid0.Coords, EltTy.bits .bf16 = 32 ∨ (Rect.block (s := S2048x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S2048x1024.size a
  hwx0_10 : ∀ i : grid0.Coords, EltTy.bits .bf16 = 32 ∨ (Rect.block (s := S2048x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x2048.size a
  hwx0_11 : ∀ i : grid0.Coords, EltTy.bits .f32 = 32 ∨ (Rect.block (s := S1x2048) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x2048.size a ≤ S2048x2048.size a
  hwx0_12 : ∀ i : grid0.Coords, EltTy.bits .bf16 = 32 ∨ (Rect.block (s := S2048x2048) S512x2048.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x2048.size a ≤ S2048x2048.size a
  hwx0_13 : ∀ i : grid0.Coords, EltTy.bits .bf16 = 32 ∨ (Rect.block (s := S2048x2048) S512x2048.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x2048.size a ≤ S2048x2048.size a
  hwx0_14 : ∀ i : grid0.Coords, EltTy.bits .bf16 = 32 ∨ (Rect.block (s := S2048x2048) S512x2048.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x2048.size a ≤ S2048x2048.size a
  hwx0_15 : ∀ i : grid0.Coords, EltTy.bits .bf16 = 32 ∨ (Rect.block (s := S2048x2048) S512x2048.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x1024.size a ≤ S2048x1024.size a
  hwx0_16 : ∀ i : grid0.Coords, EltTy.bits .bf16 = 32 ∨ (Rect.block (s := S2048x1024) S512x1024.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1024.size a ≤ S2048x1024.size a
  hwx0_17 : ∀ i : grid0.Coords, EltTy.bits .bf16 = 32 ∨ (Rect.block (s := S2048x1024) S512x1024.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1024.size a ≤ S2048x1024.size a
  hwx0_18 : ∀ i : grid0.Coords, EltTy.bits .bf16 = 32 ∨ (Rect.block (s := S2048x1024) S512x1024.size (cc0_transform_18 i) (hinb0_18 i)).WholeWords (EltTy.packing .bf16)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S512x1024.size a ≤ S2048x1024.size a
  hwx0_19 : ∀ i : grid0.Coords, EltTy.bits .bf16 = 32 ∨ (Rect.block (s := S2048x1024) S512x1024.size (cc0_transform_19 i) (hinb0_19 i)).WholeWords (EltTy.packing .bf16)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S512x512.size a ≤ S4096x2048.size a
  hwx0_20 : ∀ i : grid0.Coords, EltTy.bits .f32 = 32 ∨ (Rect.block (s := S4096x2048) S512x512.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x512.size a ≤ S4096x2048.size a
  hwx0_21 : ∀ i : grid0.Coords, EltTy.bits .f32 = 32 ∨ (Rect.block (s := S4096x2048) S512x512.size (cc0_transform_21 i) (hinb0_21 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x1024.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x1024.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v8) S512x2048.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9) S512x2048.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10) S512x2048.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v11) S512x1024.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12) S512x1024.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_v13) S512x1024.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14) S512x1024.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_v19_0) S512x512.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v19_1) S512x512.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S8192x1024 : Shape := ⟨2, ![8192, 1024]⟩
abbrev S8192 : Shape := ⟨1, ![8192]⟩
abbrev S8192x2048 : Shape := ⟨2, ![8192, 2048]⟩
abbrev S1024x8192 : Shape := ⟨2, ![1024, 8192]⟩
abbrev S4096x8192 : Shape := ⟨2, ![4096, 8192]⟩
abbrev S1x8192 : Shape := ⟨2, ![1, 8192]⟩
abbrev S2048x8192 : Shape := ⟨2, ![2048, 8192]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x1024, .f32⟩
  | .hbm, ⟨4, _⟩ => ⟨S2048x1024, .f32⟩
  | .hbm, ⟨5, _⟩ => ⟨S2048, .f32⟩
  | .hbm, ⟨6, _⟩ => ⟨S2048x1024, .f32⟩
  | .hbm, ⟨7, _⟩ => ⟨S2048, .f32⟩
  | .hbm, ⟨8, _⟩ => ⟨S2048x1024, .f32⟩
  | .hbm, ⟨9, _⟩ => ⟨S2048, .f32⟩
  | .hbm, ⟨10, _⟩ => ⟨S2048x1024, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S8192x1024, .f32⟩
  | .hbm, ⟨21, _⟩ => ⟨S8192, .f32⟩
  | .hbm, ⟨22, _⟩ => ⟨S8192x2048, .f32⟩
  | .hbm, ⟨23, _⟩ => ⟨S8192x1024, .f32⟩
  | .hbm, ⟨24, _⟩ => ⟨S1024x8192, .f32⟩
  | .hbm, ⟨25, _⟩ => ⟨S4096x8192, .f32⟩
  | .hbm, ⟨26, _⟩ => ⟨S1x8192, .f32⟩
  | .hbm, ⟨27, _⟩ => ⟨S4096x8192, .f32⟩
  | .hbm, ⟨28, _⟩ => ⟨S4096x8192, .f32⟩
  | .hbm, ⟨29, _⟩ => ⟨S2048x8192, .f32⟩
  | .hbm, ⟨30, _⟩ => ⟨S4096x8192, .f32⟩
  | .hbm, ⟨31, _⟩ => ⟨S4096x8192, .f32⟩
  | .hbm, ⟨32, _⟩ => ⟨S1024x8192, .f32⟩
  | .hbm, ⟨33, _⟩ => ⟨S4096x8192, .f32⟩
  | .hbm, ⟨34, _⟩ => ⟨S4096x8192, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_1 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048_S2048_S2048_S2048_S8192_d0 : Shape.Concatenates [S2048, S2048, S2048, S2048] S8192 0
  concatenates_S2048x2048_S2048x2048_S2048x2048_S2048x2048_S8192x2048_d0 : Shape.Concatenates [S2048x2048, S2048x2048, S2048x2048, S2048x2048] S8192x2048 0
  transposes_S8192x1024_S1024x8192_1_0 : S8192x1024.Transposes [1, 0] S1024x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  transposes_S8192x2048_S2048x8192_1_0 : S8192x2048.Transposes [1, 0] S2048x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Staged.lean ====
/-
  The arrays the region finds, and how the windows' blocks move over the grid.

  Before the region the host converts fifteen of the arguments to a narrower float format and lays each of the four bias
  vectors out as one row. On the extended reals a change of float format is the identity, so each converted array IS its
  argument, and the one-row layout of a bias reads the bias entry j at (0, j).

  The grid has 4 gate tiles by 8 batch tiles. At every grid point the three activation windows sit at the output's batch
  tile with block column 0; the cell window and both output windows sit at the output's (batch tile, gate tile); every
  weight window sits at block row = the output's gate tile, block column 0; every bias window at block row 0, block
  column = the output's gate tile. All of it is decided over the 32 points.
-/
import proofs.«160803_j24790551232936_1_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The converted arrays are the arguments -/

theorem staged_w0 (c : Dev nD) : (V m c main_v0 : S4096x1024.Idx → EReal) = m ((c : Thread nD τ).loc main_arg0) := by
  dsimp only [Gen.V, Gen.hostOps0]; after_results; rfl
theorem staged_w1 (c : Dev nD) : (V m c main_v1 : S4096x2048.Idx → EReal) = m ((c : Thread nD τ).loc main_arg1) := by
  dsimp only [Gen.V, Gen.hostOps0]; after_results; rfl
theorem staged_w3 (c : Dev nD) : (V m c main_v2 : S4096x1024.Idx → EReal) = m ((c : Thread nD τ).loc main_arg3) := by
  dsimp only [Gen.V, Gen.hostOps0]; after_results; rfl
theorem staged_w4 (c : Dev nD) : (V m c main_v3 : S2048x1024.Idx → EReal) = m ((c : Thread nD τ).loc main_arg4) := by
  dsimp only [Gen.V, Gen.hostOps0]; after_results; rfl
theorem staged_w6 (c : Dev nD) : (V m c main_v4 : S2048x1024.Idx → EReal) = m ((c : Thread nD τ).loc main_arg6) := by
  dsimp only [Gen.V, Gen.hostOps0]; after_results; rfl
theorem staged_w8 (c : Dev nD) : (V m c main_v5 : S2048x1024.Idx → EReal) = m ((c : Thread nD τ).loc main_arg8) := by
  dsimp only [Gen.V, Gen.hostOps0]; after_results; rfl
theorem staged_w10 (c : Dev nD) : (V m c main_v6 : S2048x1024.Idx → EReal) = m ((c : Thread nD τ).loc main_arg10) := by
  dsimp only [Gen.V, Gen.hostOps0]; after_results; rfl
theorem staged_w12 (c : Dev nD) : (V m c main_v7 : S2048x2048.Idx → EReal) = m ((c : Thread nD τ).loc main_arg12) := by
  dsimp only [Gen.V, Gen.hostOps0]; after_results; rfl
theorem staged_w13 (c : Dev nD) : (V m c main_v8 : S2048x2048.Idx → EReal) = m ((c : Thread nD τ).loc main_arg13) := by
  dsimp only [Gen.V, Gen.hostOps0]; after_results; rfl
theorem staged_w14 (c : Dev nD) : (V m c main_v9 : S2048x2048.Idx → EReal) = m ((c : Thread nD τ).loc main_arg14) := by
  dsimp only [Gen.V, Gen.hostOps0]; after_results; rfl
theorem staged_w15 (c : Dev nD) : (V m c main_v10 : S2048x2048.Idx → EReal) = m ((c : Thread nD τ).loc main_arg15) := by
  dsimp only [Gen.V, Gen.hostOps0]; after_results; rfl
theorem staged_w16 (c : Dev nD) : (V m c main_v11 : S2048x1024.Idx → EReal) = m ((c : Thread nD τ).loc main_arg16) := by
  dsimp only [Gen.V, Gen.hostOps0]; after_results; rfl
theorem staged_w17 (c : Dev nD) : (V m c main_v12 : S2048x1024.Idx → EReal) = m ((c : Thread nD τ).loc main_arg17) := by
  dsimp only [Gen.V, Gen.hostOps0]; after_results; rfl
theorem staged_w18 (c : Dev nD) : (V m c main_v13 : S2048x1024.Idx → EReal) = m ((c : Thread nD τ).loc main_arg18) := by
  dsimp only [Gen.V, Gen.hostOps0]; after_results; rfl
theorem staged_w19 (c : Dev nD) : (V m c main_v14 : S2048x1024.Idx → EReal) = m ((c : Thread nD τ).loc main_arg19) := by
  dsimp only [Gen.V, Gen.hostOps0]; after_results; rfl

/-! ## The biases laid out as one row -/

theorem staged_w5 (c : Dev nD) : (V m c main_v15 : S1x2048.Idx → EReal)
    = shapeCast S1x2048 (m ((c : Thread nD τ).loc main_arg5)) shapeCasts_S2048_S1x2048 := by
  dsimp only [Gen.V, Gen.hostOps0]; after_results; rfl
theorem staged_w7 (c : Dev nD) : (V m c main_v16 : S1x2048.Idx → EReal)
    = shapeCast S1x2048 (m ((c : Thread nD τ).loc main_arg7)) shapeCasts_S2048_S1x2048 := by
  dsimp only [Gen.V, Gen.hostOps0]; after_results; rfl
theorem staged_w9 (c : Dev nD) : (V m c main_v17 : S1x2048.Idx → EReal)
    = shapeCast S1x2048 (m ((c : Thread nD τ).loc main_arg9)) shapeCasts_S2048_S1x2048 := by
  dsimp only [Gen.V, Gen.hostOps0]; after_results; rfl
theorem staged_w11 (c : Dev nD) : (V m c main_v18 : S1x2048.Idx → EReal)
    = shapeCast S1x2048 (m ((c : Thread nD τ).loc main_arg11)) shapeCasts_S2048_S1x2048 := by
  dsimp only [Gen.V, Gen.hostOps0]; after_results; rfl

/-- A vector of 2048 entries laid out as one row reads its entry j at (0, j). -/
theorem one_row (v : (⟨1, ![2048]⟩ : Shape).Idx → EReal) (h : S2048.ShapeCasts S1x2048) (j : Fin 2048) :
    shapeCast S1x2048 v h (ix2 0 j) = v (ix1 j) :=
  (shapeCast_addUnit_apply ![2048] v h (ix2 0 j)).trans (congrArg v (funext fun a => match a with | ⟨0, _⟩ => rfl))

/-! ## Where each window's block sits, relative to the hidden output's block -/

/-- The activation, cell and output windows; the output's block indices stay inside the 8 × 4 tiling. -/
theorem act_idx : ∀ t : Fin cfg0.N,
    win0_0.index t (0 : Fin 2) = win0_20.index t (0 : Fin 2) ∧ win0_0.index t (1 : Fin 2) = 0
    ∧ win0_1.index t (0 : Fin 2) = win0_20.index t (0 : Fin 2) ∧ win0_1.index t (1 : Fin 2) = 0
    ∧ win0_3.index t (0 : Fin 2) = win0_20.index t (0 : Fin 2) ∧ win0_3.index t (1 : Fin 2) = 0
    ∧ win0_2.index t (0 : Fin 2) = win0_20.index t (0 : Fin 2) ∧ win0_2.index t (1 : Fin 2) = win0_20.index t (1 : Fin 2)
    ∧ win0_21.index t (0 : Fin 2) = win0_20.index t (0 : Fin 2) ∧ win0_21.index t (1 : Fin 2) = win0_20.index t (1 : Fin 2)
    ∧ win0_20.index t (0 : Fin 2) ≤ 7 ∧ win0_20.index t (1 : Fin 2) ≤ 3 :=
  (by decide +kernel : ∀ t : Fin grid0.N, _)

/-- The four gates' projected-input and external-input weight windows. -/
theorem weight_idx : ∀ t : Fin cfg0.N,
    win0_4.index t (0 : Fin 2) = win0_20.index t (1 : Fin 2) ∧ win0_4.index t (1 : Fin 2) = 0
    ∧ win0_6.index t (0 : Fin 2) = win0_20.index t (1 : Fin 2) ∧ win0_6.index t (1 : Fin 2) = 0
    ∧ win0_8.index t (0 : Fin 2) = win0_20.index t (1 : Fin 2) ∧ win0_8.index t (1 : Fin 2) = 0
    ∧ win0_10.index t (0 : Fin 2) = win0_20.index t (1 : Fin 2) ∧ win0_10.index t (1 : Fin 2) = 0
    ∧ win0_16.index t (0 : Fin 2) = win0_20.index t (1 : Fin 2) ∧ win0_16.index t (1 : Fin 2) = 0
    ∧ win0_17.index t (0 : Fin 2) = win0_20.index t (1 : Fin 2) ∧ win0_17.index t (1 : Fin 2) = 0
    ∧ win0_18.index t (0 : Fin 2) = win0_20.index t (1 : Fin 2) ∧ win0_18.index t (1 : Fin 2) = 0
    ∧ win0_19.index t (0 : Fin 2) = win0_20.index t (1 : Fin 2) ∧ win0_19.index t (1 : Fin 2) = 0 :=
  (by decide +kernel : ∀ t : Fin grid0.N, _)

/-- The four gates' hidden weight windows and bias windows. -/
theorem hidden_bias_idx : ∀ t : Fin cfg0.N,
    win0_12.index t (0 : Fin 2) = win0_20.index t (1 : Fin 2) ∧ win0_12.index t (1 : Fin 2) = 0
    ∧ win0_13.index t (0 : Fin 2) = win0_20.index t (1 : Fin 2) ∧ win0_13.index t (1 : Fin 2) = 0
    ∧ win0_14.index t (0 : Fin 2) = win0_20.index t (1 : Fin 2) ∧ win0_14.index t (1 : Fin 2) = 0
    ∧ win0_15.index t (0 : Fin 2) = win0_20.index t (1 : Fin 2) ∧ win0_15.index t (1 : Fin 2) = 0
    ∧ win0_5.index t (0 : Fin 2) = 0 ∧ win0_5.index t (1 : Fin 2) = win0_20.index t (1 : Fin 2)
    ∧ win0_7.index t (0 : Fin 2) = 0 ∧ win0_7.index t (1 : Fin 2) = win0_20.index t (1 : Fin 2)
    ∧ win0_9.index t (0 : Fin 2) = 0 ∧ win0_9.index t (1 : Fin 2) = win0_20.index t (1 : Fin 2)
    ∧ win0_11.index t (0 : Fin 2) = 0 ∧ win0_11.index t (1 : Fin 2) = win0_20.index t (1 : Fin 2) :=
  (by decide +kernel : ∀ t : Fin grid0.N, _)

/-- Every (batch tile, gate tile) is some grid point's output block. -/
theorem out_onto : ∀ (q0 : Fin 8) (q1 : Fin 4), ∃ t : Fin cfg0.N, win0_20.index t = ![q0.val, q1.val] :=
  (by decide +kernel : ∀ (q0 : Fin 8) (q1 : Fin 4), ∃ t : Fin grid0.N, win0_20.index t = ![q0.val, q1.val])

end Cert.KernelIdeal.Staged

end
-- ==== Proof.LstmSpec.lean ====
/-
  One step of a long short-term memory cell, entry by entry, on the extended reals.

  A gate's pre-activation at one entry is three dot products and a bias: a row of the projected input against a row of
  its weights, a row of the hidden state against a row of its weights, a row of the external input against a row of its
  weights. The new cell state at an entry is  σ(f)·c + σ(i)·tanh(g),  the new hidden state  σ(o)·tanh(c_new),
  with σ the logistic function.

  Two orders of adding the four summands of a pre-activation occur: products first and the bias last, or the bias right
  after the first product. Addition of extended reals is commutative and associative, so the two agree with no
  finiteness assumption on any summand. The logistic function is, by definition, 1 / (1 + exp (-x)) with the division and
  the exponential of the extended reals, so a program that spells it out computes the same number, at the infinities too.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.LstmSpec

open Idealize.ShloMosaic Idealize.ShloMosaic.ValueIdx

/-- A gate's pre-activation at one entry: the three dot products added left to right, then the bias. -/
def pre {n₁ n₂ n₃ : Nat} (p wp : Fin n₁ → EReal) (h wh : Fin n₂ → EReal) (x wx : Fin n₃ → EReal) (b : EReal) : EReal :=
  (∑ k : Fin n₁, p k * wp k) + (∑ k : Fin n₂, h k * wh k) + (∑ k : Fin n₃, x k * wx k) + b

/-- The same four summands with the bias added right after the first product. -/
theorem pre_bias_second {n₁ n₂ n₃ : Nat} (p wp : Fin n₁ → EReal) (h wh : Fin n₂ → EReal) (x wx : Fin n₃ → EReal) (b : EReal) :
    (∑ k : Fin n₁, p k * wp k) + b + (∑ k : Fin n₂, h k * wh k) + (∑ k : Fin n₃, x k * wx k) = pre p wp h wh x wx b := by
  unfold pre
  rw [add_right_comm (∑ k : Fin n₁, p k * wp k) b, add_right_comm _ b]

/-- The new cell state at one entry from the input, forget and candidate pre-activations and the old cell state. -/
def cellAt (gi gf gg c : EReal) : EReal := Ideal.logistic gf * c + Ideal.logistic gi * Ideal.tanh gg

/-- The new hidden state at one entry from the output pre-activation and the new cell state. -/
def hidAt (go cn : EReal) : EReal := Ideal.logistic go * Ideal.tanh cn

/-- The binary32 word 0x3F800000 is the number one. -/
theorem one_word : Ideal.ofBits .f32 0x3F800000#32 = 1 := IdealRules.sign_bit.ideal_onePat .f32

/-- The logistic function spelt out with that word for its two ones. -/
theorem logistic_spelt (x : EReal) :
    Ideal.div (Ideal.ofBits .f32 0x3F800000#32) (Ideal.ofBits .f32 0x3F800000#32 + Ideal.exp (-x)) = Ideal.logistic x := by
  rw [one_word]; rfl

/-! ## Whole tables

The batch has 4096 rows; the projected and the external input have 1024 columns, the hidden and the cell state 2048. Each
gate has a 2048 × 1024, a 2048 × 2048 and a 2048 × 1024 weight table and a bias of 2048 entries. -/

/-- Row r of a table, as a function of the column. -/
abbrev row {n m : Nat} (t : (⟨2, ![n, m]⟩ : Shape).Idx → EReal) (r : Fin n) : Fin m → EReal := fun k => t (ix2 r k)

/-- One gate's pre-activation at entry i = (r, j) of the 4096 × 2048 result: row r of the three activation tables against
    row j of the gate's three weight tables, and bias entry j. -/
def preArr (P : (⟨2, ![4096, 1024]⟩ : Shape).Idx → EReal) (Hd : (⟨2, ![4096, 2048]⟩ : Shape).Idx → EReal)
    (X : (⟨2, ![4096, 1024]⟩ : Shape).Idx → EReal) (Wp : (⟨2, ![2048, 1024]⟩ : Shape).Idx → EReal)
    (Wh : (⟨2, ![2048, 2048]⟩ : Shape).Idx → EReal) (Wx : (⟨2, ![2048, 1024]⟩ : Shape).Idx → EReal)
    (b : (⟨1, ![2048]⟩ : Shape).Idx → EReal) (i : (⟨2, ![4096, 2048]⟩ : Shape).Idx) : EReal :=
  pre (row P (i 0)) (row Wp (i 1)) (row Hd (i 0)) (row Wh (i 1)) (row X (i 0)) (row Wx (i 1)) (b (ix1 (i 1)))

/-- The new cell state, entry by entry, from the twenty arguments in the order the programs take them: projected input,
    hidden state, cell state, external input; the projected-input weights and bias of the input, forget, candidate and
    output gates; the four hidden weight tables; the four external-input weight tables. -/
def cellArr (P : (⟨2, ![4096, 1024]⟩ : Shape).Idx → EReal) (Hd C : (⟨2, ![4096, 2048]⟩ : Shape).Idx → EReal)
    (X : (⟨2, ![4096, 1024]⟩ : Shape).Idx → EReal)
    (Wpi : (⟨2, ![2048, 1024]⟩ : Shape).Idx → EReal) (bi : (⟨1, ![2048]⟩ : Shape).Idx → EReal)
    (Wpf : (⟨2, ![2048, 1024]⟩ : Shape).Idx → EReal) (bf : (⟨1, ![2048]⟩ : Shape).Idx → EReal)
    (Wpg : (⟨2, ![2048, 1024]⟩ : Shape).Idx → EReal) (bg : (⟨1, ![2048]⟩ : Shape).Idx → EReal)
    (Wpo : (⟨2, ![2048, 1024]⟩ : Shape).Idx → EReal) (bo : (⟨1, ![2048]⟩ : Shape).Idx → EReal)
    (Whi Whf Whg Who : (⟨2, ![2048, 2048]⟩ : Shape).Idx → EReal)
    (Wxi Wxf Wxg Wxo : (⟨2, ![2048, 1024]⟩ : Shape).Idx → EReal) : (⟨2, ![4096, 2048]⟩ : Shape).Idx → EReal := fun i =>
  cellAt (preArr P Hd X Wpi Whi Wxi bi i) (preArr P Hd X Wpf Whf Wxf bf i) (preArr P Hd X Wpg Whg Wxg bg i) (C i)

/-- The new hidden state, entry by entry, from the same twenty arguments. -/
def hidArr (P : (⟨2, ![4096, 1024]⟩ : Shape).Idx → EReal) (Hd C : (⟨2, ![4096, 2048]⟩ : Shape).Idx → EReal)
    (X : (⟨2, ![4096, 1024]⟩ : Shape).Idx → EReal)
    (Wpi : (⟨2, ![2048, 1024]⟩ : Shape).Idx → EReal) (bi : (⟨1, ![2048]⟩ : Shape).Idx → EReal)
    (Wpf : (⟨2, ![2048, 1024]⟩ : Shape).Idx → EReal) (bf : (⟨1, ![2048]⟩ : Shape).Idx → EReal)
    (Wpg : (⟨2, ![2048, 1024]⟩ : Shape).Idx → EReal) (bg : (⟨1, ![2048]⟩ : Shape).Idx → EReal)
    (Wpo : (⟨2, ![2048, 1024]⟩ : Shape).Idx → EReal) (bo : (⟨1, ![2048]⟩ : Shape).Idx → EReal)
    (Whi Whf Whg Who : (⟨2, ![2048, 2048]⟩ : Shape).Idx → EReal)
    (Wxi Wxf Wxg Wxo : (⟨2, ![2048, 1024]⟩ : Shape).Idx → EReal) : (⟨2, ![4096, 2048]⟩ : Shape).Idx → EReal := fun i =>
  hidAt (preArr P Hd X Wpo Who Wxo bo i)
    (cellArr P Hd C X Wpi bi Wpf bf Wpg bg Wpo bo Whi Whf Whg Who Wxi Wxf Wxg Wxo i)

end Cert.LstmSpec

end
-- ==== Proof.BlockReads.lean ====
/-
  Each window's block at a grid point, read off its argument.

  A block's entry (a, k) is the staged array's entry (block row · rows per block + a, block column · columns per block + k).
  With the staged arrays identified with the arguments, row a of an activation block is row r of the argument when
  r = block row · 512 + a and the block column is 0; likewise row b of a weight block is row j of the weight table; the
  bias block's entry (0, b) is bias entry j; the cell block's entry (a, b) is the cell state's entry at the shifted index.
-/
import proofs.«160803_j24790551232936_1_alg».proof.Proof.Staged
import proofs.«160803_j24790551232936_1_alg».proof.Proof.LstmSpec

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo Cert.LstmSpec

variable (m : (ℓ : Loc nD τ sig) → Buf (Elt Ideal) ℓ)

/-! ## The three activation windows -/

theorem rows_w0 (c : Dev nD) (t : Fin cfg0.N) (a : Fin 512) (r : Fin 4096)
    (hr : win0_0.index t (0 : Fin 2) * 512 + a.val = r.val) (hz : win0_0.index t (1 : Fin 2) = 0) :
    row (iblk m c 0 t : Vec Ideal S512x1024 .bf16) a = row (m ((c : Thread nD τ).loc main_arg0)) r := by
  funext k
  show V m c main_v0 (((cfg0.win 0).blk t).view.emb (ix2 a k)) = m ((c : Thread nD τ).loc main_arg0) (ix2 r k)
  rw [staged_w0 m c]
  refine congrArg _ (funext fun d => Fin.ext ?_)
  match d with
  | ⟨0, _⟩ => show win0_0.index t (0 : Fin 2) * 512 + 1 * a.val = r.val; omega
  | ⟨1, _⟩ => show win0_0.index t (1 : Fin 2) * 1024 + 1 * k.val = k.val; omega

theorem rows_w1 (c : Dev nD) (t : Fin cfg0.N) (a : Fin 512) (r : Fin 4096)
    (hr : win0_1.index t (0 : Fin 2) * 512 + a.val = r.val) (hz : win0_1.index t (1 : Fin 2) = 0) :
    row (iblk m c 1 t : Vec Ideal S512x2048 .bf16) a = row (m ((c : Thread nD τ).loc main_arg1)) r := by
  funext k
  show V m c main_v1 (((cfg0.win 1).blk t).view.emb (ix2 a k)) = m ((c : Thread nD τ).loc main_arg1) (ix2 r k)
  rw [staged_w1 m c]
  refine congrArg _ (funext fun d => Fin.ext ?_)
  match d with
  | ⟨0, _⟩ => show win0_1.index t (0 : Fin 2) * 512 + 1 * a.val = r.val; omega
  | ⟨1, _⟩ => show win0_1.index t (1 : Fin 2) * 2048 + 1 * k.val = k.val; omega

theorem rows_w3 (c : Dev nD) (t : Fin cfg0.N) (a : Fin 512) (r : Fin 4096)
    (hr : win0_3.index t (0 : Fin 2) * 512 + a.val = r.val) (hz : win0_3.index t (1 : Fin 2) = 0) :
    row (iblk m c 3 t : Vec Ideal S512x1024 .bf16) a = row (m ((c : Thread nD τ).loc main_arg3)) r := by
  funext k
  show V m c main_v2 (((cfg0.win 3).blk t).view.emb (ix2 a k)) = m ((c : Thread nD τ).loc main_arg3) (ix2 r k)
  rw [staged_w3 m c]
  refine congrArg _ (funext fun d => Fin.ext ?_)
  match d with
  | ⟨0, _⟩ => show win0_3.index t (0 : Fin 2) * 512 + 1 * a.val = r.val; omega
  | ⟨1, _⟩ => show win0_3.index t (1 : Fin 2) * 1024 + 1 * k.val = k.val; omega

/-! ## The projected-input weight windows of the four gates -/

theorem rows_w4 (c : Dev nD) (t : Fin cfg0.N) (b : Fin 512) (j : Fin 2048)
    (hj : win0_4.index t (0 : Fin 2) * 512 + b.val = j.val) (hz : win0_4.index t (1 : Fin 2) = 0) :
    row (iblk m c 4 t : Vec Ideal S512x1024 .bf16) b = row (m ((c : Thread nD τ).loc main_arg4)) j := by
  funext k
  show V m c main_v3 (((cfg0.win 4).blk t).view.emb (ix2 b k)) = m ((c : Thread nD τ).loc main_arg4) (ix2 j k)
  rw [staged_w4 m c]
  refine congrArg _ (funext fun d => Fin.ext ?_)
  match d with
  | ⟨0, _⟩ => show win0_4.index t (0 : Fin 2) * 512 + 1 * b.val = j.val; omega
  | ⟨1, _⟩ => show win0_4.index t (1 : Fin 2) * 1024 + 1 * k.val = k.val; omega

theorem rows_w6 (c : Dev nD) (t : Fin cfg0.N) (b : Fin 512) (j : Fin 2048)
    (hj : win0_6.index t (0 : Fin 2) * 512 + b.val = j.val) (hz : win0_6.index t (1 : Fin 2) = 0) :
    row (iblk m c 6 t : Vec Ideal S512x1024 .bf16) b = row (m ((c : Thread nD τ).loc main_arg6)) j := by
  funext k
  show V m c main_v4 (((cfg0.win 6).blk t).view.emb (ix2 b k)) = m ((c : Thread nD τ).loc main_arg6) (ix2 j k)
  rw [staged_w6 m c]
  refine congrArg _ (funext fun d => Fin.ext ?_)
  match d with
  | ⟨0, _⟩ => show win0_6.index t (0 : Fin 2) * 512 + 1 * b.val = j.val; omega
  | ⟨1, _⟩ => show win0_6.index t (1 : Fin 2) * 1024 + 1 * k.val = k.val; omega

theorem rows_w8 (c : Dev nD) (t : Fin cfg0.N) (b : Fin 512) (j : Fin 2048)
    (hj : win0_8.index t (0 : Fin 2) * 512 + b.val = j.val) (hz : win0_8.index t (1 : Fin 2) = 0) :
    row (iblk m c 8 t : Vec Ideal S512x1024 .bf16) b = row (m ((c : Thread nD τ).loc main_arg8)) j := by
  funext k
  show V m c main_v5 (((cfg0.win 8).blk t).view.emb (ix2 b k)) = m ((c : Thread nD τ).loc main_arg8) (ix2 j k)
  rw [staged_w8 m c]
  refine congrArg _ (funext fun d => Fin.ext ?_)
  match d with
  | ⟨0, _⟩ => show win0_8.index t (0 : Fin 2) * 512 + 1 * b.val = j.val; omega
  | ⟨1, _⟩ => show win0_8.index t (1 : Fin 2) * 1024 + 1 * k.val = k.val; omega

theorem rows_w10 (c : Dev nD) (t : Fin cfg0.N) (b : Fin 512) (j : Fin 2048)
    (hj : win0_10.index t (0 : Fin 2) * 512 + b.val = j.val) (hz : win0_10.index t (1 : Fin 2) = 0) :
    row (iblk m c 10 t : Vec Ideal S512x1024 .bf16) b = row (m ((c : Thread nD τ).loc main_arg10)) j := by
  funext k
  show V m c main_v6 (((cfg0.win 10).blk t).view.emb (ix2 b k)) = m ((c : Thread nD τ).loc main_arg10) (ix2 j k)
  rw [staged_w10 m c]
  refine congrArg _ (funext fun d => Fin.ext ?_)
  match d with
  | ⟨0, _⟩ => show win0_10.index t (0 : Fin 2) * 512 + 1 * b.val = j.val; omega
  | ⟨1, _⟩ => show win0_10.index t (1 : Fin 2) * 1024 + 1 * k.val = k.val; omega

/-! ## The hidden weight windows of the four gates -/

theorem rows_w12 (c : Dev nD) (t : Fin cfg0.N) (b : Fin 512) (j : Fin 2048)
    (hj : win0_12.index t (0 : Fin 2) * 512 + b.val = j.val) (hz : win0_12.index t (1 : Fin 2) = 0) :
    row (iblk m c 12 t : Vec Ideal S512x2048 .bf16) b = row (m ((c : Thread nD τ).loc main_arg12)) j := by
  funext k
  show V m c main_v7 (((cfg0.win 12).blk t).view.emb (ix2 b k)) = m ((c : Thread nD τ).loc main_arg12) (ix2 j k)
  rw [staged_w12 m c]
  refine congrArg _ (funext fun d => Fin.ext ?_)
  match d with
  | ⟨0, _⟩ => show win0_12.index t (0 : Fin 2) * 512 + 1 * b.val = j.val; omega
  | ⟨1, _⟩ => show win0_12.index t (1 : Fin 2) * 2048 + 1 * k.val = k.val; omega

theorem rows_w13 (c : Dev nD) (t : Fin cfg0.N) (b : Fin 512) (j : Fin 2048)
    (hj : win0_13.index t (0 : Fin 2) * 512 + b.val = j.val) (hz : win0_13.index t (1 : Fin 2) = 0) :
    row (iblk m c 13 t : Vec Ideal S512x2048 .bf16) b = row (m ((c : Thread nD τ).loc main_arg13)) j := by
  funext k
  show V m c main_v8 (((cfg0.win 13).blk t).view.emb (ix2 b k)) = m ((c : Thread nD τ).loc main_arg13) (ix2 j k)
  rw [staged_w13 m c]
  refine congrArg _ (funext fun d => Fin.ext ?_)
  match d with
  | ⟨0, _⟩ => show win0_13.index t (0 : Fin 2) * 512 + 1 * b.val = j.val; omega
  | ⟨1, _⟩ => show win0_13.index t (1 : Fin 2) * 2048 + 1 * k.val = k.val; omega

theorem rows_w14 (c : Dev nD) (t : Fin cfg0.N) (b : Fin 512) (j : Fin 2048)
    (hj : win0_14.index t (0 : Fin 2) * 512 + b.val = j.val) (hz : win0_14.index t (1 : Fin 2) = 0) :
    row (iblk m c 14 t : Vec Ideal S512x2048 .bf16) b = row (m ((c : Thread nD τ).loc main_arg14)) j := by
  funext k
  show V m c main_v9 (((cfg0.win 14).blk t).view.emb (ix2 b k)) = m ((c : Thread nD τ).loc main_arg14) (ix2 j k)
  rw [staged_w14 m c]
  refine congrArg _ (funext fun d => Fin.ext ?_)
  match d with
  | ⟨0, _⟩ => show win0_14.index t (0 : Fin 2) * 512 + 1 * b.val = j.val; omega
  | ⟨1, _⟩ => show win0_14.index t (1 : Fin 2) * 2048 + 1 * k.val = k.val; omega

theorem rows_w15 (c : Dev nD) (t : Fin cfg0.N) (b : Fin 512) (j : Fin 2048)
    (hj : win0_15.index t (0 : Fin 2) * 512 + b.val = j.val) (hz : win0_15.index t (1 : Fin 2) = 0) :
    row (iblk m c 15 t : Vec Ideal S512x2048 .bf16) b = row (m ((c : Thread nD τ).loc main_arg15)) j := by
  funext k
  show V m c main_v10 (((cfg0.win 15).blk t).view.emb (ix2 b k)) = m ((c : Thread nD τ).loc main_arg15) (ix2 j k)
  rw [staged_w15 m c]
  refine congrArg _ (funext fun d => Fin.ext ?_)
  match d with
  | ⟨0, _⟩ => show win0_15.index t (0 : Fin 2) * 512 + 1 * b.val = j.val; omega
  | ⟨1, _⟩ => show win0_15.index t (1 : Fin 2) * 2048 + 1 * k.val = k.val; omega

/-! ## The external-input weight windows of the four gates -/

theorem rows_w16 (c : Dev nD) (t : Fin cfg0.N) (b : Fin 512) (j : Fin 2048)
    (hj : win0_16.index t (0 : Fin 2) * 512 + b.val = j.val) (hz : win0_16.index t (1 : Fin 2) = 0) :
    row (iblk m c 16 t : Vec Ideal S512x1024 .bf16) b = row (m ((c : Thread nD τ).loc main_arg16)) j := by
  funext k
  show V m c main_v11 (((cfg0.win 16).blk t).view.emb (ix2 b k)) = m ((c : Thread nD τ).loc main_arg16) (ix2 j k)
  rw [staged_w16 m c]
  refine congrArg _ (funext fun d => Fin.ext ?_)
  match d with
  | ⟨0, _⟩ => show win0_16.index t (0 : Fin 2) * 512 + 1 * b.val = j.val; omega
  | ⟨1, _⟩ => show win0_16.index t (1 : Fin 2) * 1024 + 1 * k.val = k.val; omega

theorem rows_w17 (c : Dev nD) (t : Fin cfg0.N) (b : Fin 512) (j : Fin 2048)
    (hj : win0_17.index t (0 : Fin 2) * 512 + b.val = j.val) (hz : win0_17.index t (1 : Fin 2) = 0) :
    row (iblk m c 17 t : Vec Ideal S512x1024 .bf16) b = row (m ((c : Thread nD τ).loc main_arg17)) j := by
  funext k
  show V m c main_v12 (((cfg0.win 17).blk t).view.emb (ix2 b k)) = m ((c : Thread nD τ).loc main_arg17) (ix2 j k)
  rw [staged_w17 m c]
  refine congrArg _ (funext fun d => Fin.ext ?_)
  match d with
  | ⟨0, _⟩ => show win0_17.index t (0 : Fin 2) * 512 + 1 * b.val = j.val; omega
  | ⟨1, _⟩ => show win0_17.index t (1 : Fin 2) * 1024 + 1 * k.val = k.val; omega

theorem rows_w18 (c : Dev nD) (t : Fin cfg0.N) (b : Fin 512) (j : Fin 2048)
    (hj : win0_18.index t (0 : Fin 2) * 512 + b.val = j.val) (hz : win0_18.index t (1 : Fin 2) = 0) :
    row (iblk m c 18 t : Vec Ideal S512x1024 .bf16) b = row (m ((c : Thread nD τ).loc main_arg18)) j := by
  funext k
  show V m c main_v13 (((cfg0.win 18).blk t).view.emb (ix2 b k)) = m ((c : Thread nD τ).loc main_arg18) (ix2 j k)
  rw [staged_w18 m c]
  refine congrArg _ (funext fun d => Fin.ext ?_)
  match d with
  | ⟨0, _⟩ => show win0_18.index t (0 : Fin 2) * 512 + 1 * b.val = j.val; omega
  | ⟨1, _⟩ => show win0_18.index t (1 : Fin 2) * 1024 + 1 * k.val = k.val; omega

theorem rows_w19 (c : Dev nD) (t : Fin cfg0.N) (b : Fin 512) (j : Fin 2048)
    (hj : win0_19.index t (0 : Fin 2) * 512 + b.val = j.val) (hz : win0_19.index t (1 : Fin 2) = 0) :
    row (iblk m c 19 t : Vec Ideal S512x1024 .bf16) b = row (m ((c : Thread nD τ).loc main_arg19)) j := by
  funext k
  show V m c main_v14 (((cfg0.win 19).blk t).view.emb (ix2 b k)) = m ((c : Thread nD τ).loc main_arg19) (ix2 j k)
  rw [staged_w19 m c]
  refine congrArg _ (funext fun d => Fin.ext ?_)
  match d with
  | ⟨0, _⟩ => show win0_19.index t (0 : Fin 2) * 512 + 1 * b.val = j.val; omega
  | ⟨1, _⟩ => show win0_19.index t (1 : Fin 2) * 1024 + 1 * k.val = k.val; omega

/-! ## The four bias windows -/

theorem bias_w5 (c : Dev nD) (t : Fin cfg0.N) (b : Fin 512) (j : Fin 2048)
    (hj : win0_5.index t (1 : Fin 2) * 512 + b.val = j.val) (hz : win0_5.index t (0 : Fin 2) = 0) :
    (iblk m c 5 t : Vec Ideal S1x512 .f32) (ix2 0 b) = m ((c : Thread nD τ).loc main_arg5) (ix1 j) := by
  show V m c main_v15 (((cfg0.win 5).blk t).view.emb (ix2 0 b)) = _
  rw [staged_w5 m c]
  have e : ((cfg0.win 5).blk t).view.emb (ix2 0 b) = ix2 0 j := funext fun d => Fin.ext (by
    match d with
    | ⟨0, _⟩ => show win0_5.index t (0 : Fin 2) * 1 + 1 * 0 = 0; omega
    | ⟨1, _⟩ => show win0_5.index t (1 : Fin 2) * 512 + 1 * b.val = j.val; omega)
  rw [e]
  exact one_row _ _ j

theorem bias_w7 (c : Dev nD) (t : Fin cfg0.N) (b : Fin 512) (j : Fin 2048)
    (hj : win0_7.index t (1 : Fin 2) * 512 + b.val = j.val) (hz : win0_7.index t (0 : Fin 2) = 0) :
    (iblk m c 7 t : Vec Ideal S1x512 .f32) (ix2 0 b) = m ((c : Thread nD τ).loc main_arg7) (ix1 j) := by
  show V m c main_v16 (((cfg0.win 7).blk t).view.emb (ix2 0 b)) = _
  rw [staged_w7 m c]
  have e : ((cfg0.win 7).blk t).view.emb (ix2 0 b) = ix2 0 j := funext fun d => Fin.ext (by
    match d with
    | ⟨0, _⟩ => show win0_7.index t (0 : Fin 2) * 1 + 1 * 0 = 0; omega
    | ⟨1, _⟩ => show win0_7.index t (1 : Fin 2) * 512 + 1 * b.val = j.val; omega)
  rw [e]
  exact one_row _ _ j

theorem bias_w9 (c : Dev nD) (t : Fin cfg0.N) (b : Fin 512) (j : Fin 2048)
    (hj : win0_9.index t (1 : Fin 2) * 512 + b.val = j.val) (hz : win0_9.index t (0 : Fin 2) = 0) :
    (iblk m c 9 t : Vec Ideal S1x512 .f32) (ix2 0 b) = m ((c : Thread nD τ).loc main_arg9) (ix1 j) := by
  show V m c main_v17 (((cfg0.win 9).blk t).view.emb (ix2 0 b)) = _
  rw [staged_w9 m c]
  have e : ((cfg0.win 9).blk t).view.emb (ix2 0 b) = ix2 0 j := funext fun d => Fin.ext (by
    match d with
    | ⟨0, _⟩ => show win0_9.index t (0 : Fin 2) * 1 + 1 * 0 = 0; omega
    | ⟨1, _⟩ => show win0_9.index t (1 : Fin 2) * 512 + 1 * b.val = j.val; omega)
  rw [e]
  exact one_row _ _ j

theorem bias_w11 (c : Dev nD) (t : Fin cfg0.N) (b : Fin 512) (j : Fin 2048)
    (hj : win0_11.index t (1 : Fin 2) * 512 + b.val = j.val) (hz : win0_11.index t (0 : Fin 2) = 0) :
    (iblk m c 11 t : Vec Ideal S1x512 .f32) (ix2 0 b) = m ((c : Thread nD τ).loc main_arg11) (ix1 j) := by
  show V m c main_v18 (((cfg0.win 11).blk t).view.emb (ix2 0 b)) = _
  rw [staged_w11 m c]
  have e : ((cfg0.win 11).blk t).view.emb (ix2 0 b) = ix2 0 j := funext fun d => Fin.ext (by
    match d with
    | ⟨0, _⟩ => show win0_11.index t (0 : Fin 2) * 1 + 1 * 0 = 0; omega
    | ⟨1, _⟩ => show win0_11.index t (1 : Fin 2) * 512 + 1 * b.val = j.val; omega)
  rw [e]
  exact one_row _ _ j

/-! ## The cell window -/

theorem cell_w2 (c : Dev nD) (t : Fin cfg0.N) (a b : Fin 512) (i : S4096x2048.Idx)
    (h0 : win0_2.index t (0 : Fin 2) * 512 + a.val = (i 0).val) (h1 : win0_2.index t (1 : Fin 2) * 512 + b.val = (i 1).val) :
    (iblk m c 2 t : Vec Ideal S512x512 .f32) (ix2 a b) = m ((c : Thread nD τ).loc main_arg2) i := by
  show V m c main_arg2 (((cfg0.win 2).blk t).view.emb (ix2 a b)) = _
  rw [V_main_arg2 m c]
  refine congrArg _ (funext fun d => Fin.ext ?_)
  match d with
  | ⟨0, _⟩ => show win0_2.index t (0 : Fin 2) * 512 + 1 * a.val = (i 0).val; omega
  | ⟨1, _⟩ => show win0_2.index t (1 : Fin 2) * 512 + 1 * b.val = (i 1).val; omega

end Cert.KernelIdeal.Staged

end
-- ==== Proof.LibDotT.lean ====
/-
  A product against a transposed table, read at an entry.

  An m × n table times the transpose of a p × n table — the dimension record contracts axis 1 of BOTH operands, rows
  free on the left, rows free on the right, no batch axis — has entry (a, b) equal to  Σ_k l(a, k) · r(b, k),  k over
  `Fin n`. The sum over the record's own contraction index type is carried to `Fin n` along the bijection that reads
  its one coordinate. No finiteness is assumed.
-/
import Idealize.ShloMosaic.Lib.ValueIdx
import Idealize.ShloMosaic.PureOps.Ideal.Laws

noncomputable section

open scoped BigOperators

namespace Cert.LibDotT

open Idealize.ShloMosaic Idealize.ShloMosaic.ValueIdx

/-- Entry (a, b) of l · rᵀ as a sum over the shared axis' positions `k : Fin n`: the record contracts one axis of extent
    n (`hr`, `hs`); at output (a, b) and contraction position q its left index is (a, q) and its right index (b, q)
    (`hl0` … `hr1`, coordinate by coordinate). -/
theorem sum_nt {m n p : Nat} (d : DotDims ⟨2, ![m, n]⟩ ⟨2, ![p, n]⟩ ⟨2, ![m, p]⟩)
    (hr : d.contr.rank = 1) (hs : d.contr.size ⟨0, by omega⟩ = n)
    (hl0 : ∀ (i : (⟨2, ![m, p]⟩ : Shape).Idx) (q : d.contr.Idx), (d.lhsIdx i q 0).val = (i 0).val)
    (hl1 : ∀ (i : (⟨2, ![m, p]⟩ : Shape).Idx) (q : d.contr.Idx), (d.lhsIdx i q 1).val = (q ⟨0, by omega⟩).val)
    (hr0 : ∀ (i : (⟨2, ![m, p]⟩ : Shape).Idx) (q : d.contr.Idx), (d.rhsIdx i q 0).val = (i 1).val)
    (hr1 : ∀ (i : (⟨2, ![m, p]⟩ : Shape).Idx) (q : d.contr.Idx), (d.rhsIdx i q 1).val = (q ⟨0, by omega⟩).val)
    (l : (⟨2, ![m, n]⟩ : Shape).Idx → EReal) (r : (⟨2, ![p, n]⟩ : Shape).Idx → EReal) (a : Fin m) (b : Fin p) :
    ∑ k : d.contr.Idx, l (d.lhsIdx (ix2 a b) k) * r (d.rhsIdx (ix2 a b) k) = ∑ k : Fin n, l (ix2 a k) * r (ix2 b k) := by
  rw [← Equiv.sum_comp (contrEquiv1 d n hr hs).symm]
  refine Finset.sum_congr rfl fun k _ => ?_
  have hk := contrEquiv1_symm_val d n hr hs k
  have el : d.lhsIdx (ix2 a b) ((contrEquiv1 d n hr hs).symm k) = ix2 a k := funext fun x => Fin.ext (by
    match x with
    | ⟨0, _⟩ => exact hl0 _ _
    | ⟨1, _⟩ => exact (hl1 _ _).trans hk)
  have er : d.rhsIdx (ix2 a b) ((contrEquiv1 d n hr hs).symm k) = ix2 b k := funext fun x => Fin.ext (by
    match x with
    | ⟨0, _⟩ => exact hr0 _ _
    | ⟨1, _⟩ => exact (hr1 _ _).trans hk)
  rw [el, er]

end Cert.LibDotT

end
-- ==== Proof.BlockEntry.lean ====
/-
  What the vector unit leaves at one entry of an output block.

  A block of the batch has 512 rows, a block of a gate 512 columns. At entry (a, b) of the block each of the four
  pre-activations is: row a of the projected-input block against row b of that gate's weight block (1024 products), row a
  of the hidden block against row b of the hidden weight block (2048 products), row a of the external-input block against
  row b of its weight block (1024 products), the three sums added left to right, then entry b of the gate's one-row bias
  block. Each product against a transposed block, accumulated into zeros, is the plain sum over the shared axis. The cell
  block's entry and the four pre-activations give the new cell state and the new hidden state at (a, b).
-/
import proofs.«160803_j24790551232936_1_alg».proof.Proof.Gen.KernelIdeal.Frame
import proofs.«160803_j24790551232936_1_alg».proof.Proof.LstmSpec
import proofs.«160803_j24790551232936_1_alg».proof.Proof.LibDotT
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx Cert.LstmSpec

/-! ## The two dimension records: both contract axis 1 of both operands -/

theorem dP_l0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem dP_l1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
theorem dP_r0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem dP_r1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

theorem dH_l0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem dH_l1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem dH_r0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem dH_r1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

/-- A 512 × 1024 block times the transpose of a 512 × 1024 block, into zeros, at (a, b). -/
theorem mulT_1024 (l r : FVec Ideal S512x1024 .bf16) (a b : Fin 512) :
    FloatOps.matmul dot_S512x1024_S512x1024_S512x512_1_1_0_0_n_n none l r (constant S512x512 .f32 0x00000000#32) (ix2 a b) = ∑ k : Fin 1024, row l a k * row r b k :=
  (Ideal.matmul_constant_zero_apply dot_S512x1024_S512x1024_S512x512_1_1_0_0_n_n none l r (ix2 a b)).trans
    (Cert.LibDotT.sum_nt dot_S512x1024_S512x1024_S512x512_1_1_0_0_n_n rfl rfl dP_l0 dP_l1 dP_r0 dP_r1 l r a b)

/-- A 512 × 2048 block times the transpose of a 512 × 2048 block, into zeros, at (a, b). -/
theorem mulT_2048 (l r : FVec Ideal S512x2048 .bf16) (a b : Fin 512) :
    FloatOps.matmul dot_S512x2048_S512x2048_S512x512_1_1_0_0_n_n none l r (constant S512x512 .f32 0x00000000#32) (ix2 a b) = ∑ k : Fin 2048, row l a k * row r b k :=
  (Ideal.matmul_constant_zero_apply dot_S512x2048_S512x2048_S512x512_1_1_0_0_n_n none l r (ix2 a b)).trans
    (Cert.LibDotT.sum_nt dot_S512x2048_S512x2048_S512x512_1_1_0_0_n_n rfl rfl dH_l0 dH_l1 dH_r0 dH_r1 l r a b)

/-- A one-row block repeated down 512 rows reads its entry b at (a, b). -/
theorem bias_rows (v : FVec Ideal S1x512 .f32) (a b : Fin 512) :
    broadcastTo S512x512 v broadcasts_S1x512_S512x512 (ix2 a b) = v (ix2 0 b) :=
  broadcastTo_apply v broadcasts_S1x512_S512x512 (ix2 a b) (ix2 0 b) (fun d => match d with
    | ⟨0, _⟩ => by show 0 = (if (1 : Nat) = 1 then 0 else a.val); rw [if_pos rfl]
    | ⟨1, _⟩ => by show b.val = (if (512 : Nat) = 1 then 0 else b.val); rw [if_neg (by decide)])

end Cert.KernelIdeal.Entry

end
-- ==== Proof.BlockGates.lean ====
/-
  The four pre-activations, the new cell state and the new hidden state at one entry of an output block.

  Every pre-activation the vector unit computes has one shape: three products of a block against a transposed weight
  block, each accumulated into zeros, added left to right, plus a one-row bias block repeated down the rows (for the
  output gate the bias is added one step later, by the same addition). At entry (a, b) that is the pre-activation of row a
  of the three activation blocks against row b of the three weight blocks with bias entry b. The stored hidden block is
  σ(o)·tanh(c_new) and the stored cell block  c_new = σ(f)·c + σ(i)·tanh(g)  at every entry.
-/
import proofs.«160803_j24790551232936_1_alg».proof.Proof.BlockEntry

noncomputable section

open scoped BigOperators

namespace Cert.KernelIdeal.Entry

open Cert.KernelIdeal Cert.KernelIdeal.Gen Idealize.ShloMosaic Idealize.ShloMosaic.ValueIdx Cert.LstmSpec

/-- Three products against transposed blocks, added left to right, at (a, b). -/
theorem three_entry (p wp x wx : FVec Ideal S512x1024 .bf16) (h wh : FVec Ideal S512x2048 .bf16) (a b : Fin 512) :
    addf (addf (FloatOps.matmul dot_S512x1024_S512x1024_S512x512_1_1_0_0_n_n none p wp (constant S512x512 .f32 0x00000000#32))
        (FloatOps.matmul dot_S512x2048_S512x2048_S512x512_1_1_0_0_n_n none h wh (constant S512x512 .f32 0x00000000#32)))
      (FloatOps.matmul dot_S512x1024_S512x1024_S512x512_1_1_0_0_n_n none x wx (constant S512x512 .f32 0x00000000#32)) (ix2 a b)
    = (∑ k : Fin 1024, row p a k * row wp b k) + (∑ k : Fin 2048, row h a k * row wh b k) + (∑ k : Fin 1024, row x a k * row wx b k) := by
  show (FloatOps.matmul dot_S512x1024_S512x1024_S512x512_1_1_0_0_n_n none p wp (constant S512x512 .f32 0x00000000#32) (ix2 a b)
      + FloatOps.matmul dot_S512x2048_S512x2048_S512x512_1_1_0_0_n_n none h wh (constant S512x512 .f32 0x00000000#32) (ix2 a b))
      + FloatOps.matmul dot_S512x1024_S512x1024_S512x512_1_1_0_0_n_n none x wx (constant S512x512 .f32 0x00000000#32) (ix2 a b) = _
  rw [mulT_1024, mulT_2048, mulT_1024]

/-- The same with the bias row added last: a pre-activation at (a, b). -/
theorem gate_entry (p wp x wx : FVec Ideal S512x1024 .bf16) (h wh : FVec Ideal S512x2048 .bf16) (bias : FVec Ideal S1x512 .f32)
    (a b : Fin 512) :
    addf (addf (addf (FloatOps.matmul dot_S512x1024_S512x1024_S512x512_1_1_0_0_n_n none p wp (constant S512x512 .f32 0x00000000#32))
          (FloatOps.matmul dot_S512x2048_S512x2048_S512x512_1_1_0_0_n_n none h wh (constant S512x512 .f32 0x00000000#32)))
        (FloatOps.matmul dot_S512x1024_S512x1024_S512x512_1_1_0_0_n_n none x wx (constant S512x512 .f32 0x00000000#32)))
      (broadcastTo S512x512 bias broadcasts_S1x512_S512x512) (ix2 a b)
    = pre (row p a) (row wp b) (row h a) (row wh b) (row x a) (row wx b) (bias (ix2 0 b)) := by
  show addf (addf (FloatOps.matmul dot_S512x1024_S512x1024_S512x512_1_1_0_0_n_n none p wp (constant S512x512 .f32 0x00000000#32))
        (FloatOps.matmul dot_S512x2048_S512x2048_S512x512_1_1_0_0_n_n none h wh (constant S512x512 .f32 0x00000000#32)))
      (FloatOps.matmul dot_S512x1024_S512x1024_S512x512_1_1_0_0_n_n none x wx (constant S512x512 .f32 0x00000000#32)) (ix2 a b)
      + broadcastTo S512x512 bias broadcasts_S1x512_S512x512 (ix2 a b) = _
  rw [three_entry, bias_rows]
  rfl

/-! ## The re-shapings to the same shape are the identity -/

theorem pay3_eq (v : Vec Ideal S512x1024 .bf16) : k0_pay3 v = v := shapeCast_self _ _
theorem pay4_eq (v : Vec Ideal S512x2048 .bf16) : k0_pay4 v = v := shapeCast_self _ _
theorem pay5_eq (v : Vec Ideal S512x1024 .bf16) : k0_pay5 v = v := shapeCast_self _ _
theorem pay7_eq (v : Vec Ideal S512x1024 .bf16) : k0_pay7 v = v := shapeCast_self _ _
theorem pay8_eq (v : Vec Ideal S1x512 .f32) : k0_pay8 v = v := shapeCast_self _ _
theorem pay9_eq (v : Vec Ideal S512x2048 .bf16) : k0_pay9 v = v := shapeCast_self _ _
theorem pay10_eq (v : Vec Ideal S512x1024 .bf16) : k0_pay10 v = v := shapeCast_self _ _

/-! ## The four pre-activations -/

/-- The input gate's pre-activation at (a, b). -/
theorem pay6_apply (v0 : Vec Ideal S512x1024 .bf16) (v2 : Vec Ideal S512x2048 .bf16) (v4 v7 : Vec Ideal S512x1024 .bf16)
    (v9 : Vec Ideal S1x512 .f32) (v11 : Vec Ideal S512x2048 .bf16) (v13 : Vec Ideal S512x1024 .bf16) (a b : Fin 512) :
    k0_pay6 v0 v2 v4 v7 v9 v11 v13 (ix2 a b)
      = pre (row v0 a) (row v7 b) (row v2 a) (row v11 b) (row v4 a) (row v13 b) (v9 (ix2 0 b)) := by
  simp only [k0_pay6, k0_pay3, k0_pay4, k0_pay5, shapeCast_self]
  exact gate_entry v0 v7 v4 v13 v2 v11 v9 a b

/-- The forget gate's pre-activation at (a, b). -/
theorem pay11_apply (v1 : FVec Ideal S512x1024 .bf16) (v3 : FVec Ideal S512x2048 .bf16) (v5 v23 : FVec Ideal S512x1024 .bf16)
    (v25 : FVec Ideal S1x512 .f32) (v27 : FVec Ideal S512x2048 .bf16) (v29 : FVec Ideal S512x1024 .bf16) (a b : Fin 512) :
    k0_pay11 v1 v3 v5 v23 v25 v27 v29 (constant S512x512 .f32 0x00000000#32) (ix2 a b)
      = pre (row v1 a) (row v23 b) (row v3 a) (row v27 b) (row v5 a) (row v29 b) (v25 (ix2 0 b)) :=
  gate_entry v1 v23 v5 v29 v3 v27 v25 a b

/-- The candidate's pre-activation at (a, b). -/
theorem pay12_apply (v1 : FVec Ideal S512x1024 .bf16) (v3 : FVec Ideal S512x2048 .bf16) (v5 : FVec Ideal S512x1024 .bf16)
    (v37 : Vec Ideal S512x1024 .bf16) (v39 : Vec Ideal S1x512 .f32) (v41 : Vec Ideal S512x2048 .bf16) (v43 : Vec Ideal S512x1024 .bf16)
    (a b : Fin 512) :
    k0_pay12 v1 v3 v5 v37 v39 v41 v43 (ix2 a b)
      = pre (row v1 a) (row v37 b) (row v3 a) (row v41 b) (row v5 a) (row v43 b) (v39 (ix2 0 b)) := by
  simp only [k0_pay12, shapeCast_self]
  exact gate_entry v1 v37 v5 v43 v3 v41 v39 a b

/-- The output gate's three products at (a, b); its bias is added one step later. -/
theorem pay13_apply (v1 : FVec Ideal S512x1024 .bf16) (v3 : FVec Ideal S512x2048 .bf16) (v5 : FVec Ideal S512x1024 .bf16)
    (v52 : Vec Ideal S512x1024 .bf16) (v56 : Vec Ideal S512x2048 .bf16) (v58 : Vec Ideal S512x1024 .bf16) (a b : Fin 512) :
    k0_pay13 v1 v3 v5 v52 v56 v58 (ix2 a b)
      = (∑ k : Fin 1024, row v1 a k * row v52 b k) + (∑ k : Fin 2048, row v3 a k * row v56 b k) + (∑ k : Fin 1024, row v5 a k * row v58 b k) := by
  simp only [k0_pay13, shapeCast_self]
  exact three_entry v1 v52 v5 v58 v3 v56 a b

/-- The output gate's bias row repeated down the rows, at (a, b). -/
theorem pay14_apply (v54 : Vec Ideal S1x512 .f32) (a b : Fin 512) : k0_pay14 v54 (ix2 a b) = v54 (ix2 0 b) := by
  simp only [k0_pay14, shapeCast_self]
  exact bias_rows v54 a b

/-! ## The two stored blocks -/

/-- The new cell state at an entry, from the three pre-activation blocks and the cell block. -/
theorem pay1_apply (v6 v21 v36 v51 : FVec Ideal S512x512 .f32) (i : S512x512.Idx) :
    k0_pay1 v6 v21 v36 v51 i = cellAt (v21 i) (v36 i) (v51 i) (v6 i) := rfl

/-- The new hidden state at an entry. -/
theorem pay2_apply (v6 v21 v36 v51 v64 v65 : FVec Ideal S512x512 .f32) (i : S512x512.Idx) :
    k0_pay2 v6 v21 v36 v51 v64 v65 i = hidAt (v64 i + v65 i) (cellAt (v21 i) (v36 i) (v51 i) (v6 i)) := rfl

end Cert.KernelIdeal.Entry

end
-- ==== Proof.BlockOut.lean ====
/-
  The two stored blocks as functions of the twenty input blocks.

  The body stores each output block whole, once. Block 0, 1, 3 are the rows of the projected input, the hidden state and
  the external input for this batch tile; block 2 is the cell tile; blocks 4, 6, 8, 10 / 12 … 15 / 16 … 19 are the input,
  forget, candidate and output gates' rows of the three weight tables for this gate tile, and blocks 5, 7, 9, 11 their
  one-row bias tiles. Entry (a, b) of the stored cell block is the new cell state from the first three pre-activations at
  (a, b) and the old cell entry; entry (a, b) of the stored hidden block is the new hidden state from the output gate's
  pre-activation at (a, b) and that new cell state.
-/
import proofs.«160803_j24790551232936_1_alg».proof.Proof.BlockGates

noncomputable section

open scoped BigOperators

namespace Cert.KernelIdeal.Entry

open Cert.KernelIdeal Cert.KernelIdeal.Gen Idealize.ShloMosaic Idealize.ShloMosaic.ValueIdx Cert.LstmSpec

theorem zero_offsets : (![0, 0] : Fin 2 → Nat) = fun _ => 0 := funext fun a => by fin_cases a <;> rfl

/-- The new cell state at entry (a, b) of the tile, from the input blocks. -/
def cellBlk (x0 : Vec Ideal S512x1024 .bf16) (x1 : Vec Ideal S512x2048 .bf16) (x2 : Vec Ideal S512x512 .f32) (x3 x4 : Vec Ideal S512x1024 .bf16) (x5 : Vec Ideal S1x512 .f32) (x6 : Vec Ideal S512x1024 .bf16) (x7 : Vec Ideal S1x512 .f32) (x8 : Vec Ideal S512x1024 .bf16) (x9 : Vec Ideal S1x512 .f32) (x10 : Vec Ideal S512x1024 .bf16) (x11 : Vec Ideal S1x512 .f32) (x12 x13 x14 x15 : Vec Ideal S512x2048 .bf16) (x16 x17 x18 x19 : Vec Ideal S512x1024 .bf16) (a b : Fin 512) : EReal :=
  cellAt (pre (row x0 a) (row x4 b) (row x1 a) (row x12 b) (row x3 a) (row x16 b) (x5 (ix2 0 b)))
    (pre (row x0 a) (row x6 b) (row x1 a) (row x13 b) (row x3 a) (row x17 b) (x7 (ix2 0 b)))
    (pre (row x0 a) (row x8 b) (row x1 a) (row x14 b) (row x3 a) (row x18 b) (x9 (ix2 0 b)))
    (x2 (ix2 a b))

/-- The new hidden state at entry (a, b) of the tile, from the input blocks. -/
def hidBlk (x0 : Vec Ideal S512x1024 .bf16) (x1 : Vec Ideal S512x2048 .bf16) (x2 : Vec Ideal S512x512 .f32) (x3 x4 : Vec Ideal S512x1024 .bf16) (x5 : Vec Ideal S1x512 .f32) (x6 : Vec Ideal S512x1024 .bf16) (x7 : Vec Ideal S1x512 .f32) (x8 : Vec Ideal S512x1024 .bf16) (x9 : Vec Ideal S1x512 .f32) (x10 : Vec Ideal S512x1024 .bf16) (x11 : Vec Ideal S1x512 .f32) (x12 x13 x14 x15 : Vec Ideal S512x2048 .bf16) (x16 x17 x18 x19 : Vec Ideal S512x1024 .bf16) (a b : Fin 512) : EReal :=
  hidAt (pre (row x0 a) (row x10 b) (row x1 a) (row x15 b) (row x3 a) (row x19 b) (x11 (ix2 0 b)))
    (cellBlk x0 x1 x2 x3 x4 x5 x6 x7 x8 x9 x10 x11 x12 x13 x14 x15 x16 x17 x18 x19 a b)

/-- What the body leaves in the cell output's buffer, at (a, b). -/
theorem cell_block (x0 : Vec Ideal S512x1024 .bf16) (x1 : Vec Ideal S512x2048 .bf16) (x2 : Vec Ideal S512x512 .f32) (x3 x4 : Vec Ideal S512x1024 .bf16) (x5 : Vec Ideal S1x512 .f32) (x6 : Vec Ideal S512x1024 .bf16) (x7 : Vec Ideal S1x512 .f32) (x8 : Vec Ideal S512x1024 .bf16) (x9 : Vec Ideal S1x512 .f32) (x10 : Vec Ideal S512x1024 .bf16) (x11 : Vec Ideal S1x512 .f32) (x12 x13 x14 x15 : Vec Ideal S512x2048 .bf16) (x16 x17 x18 x19 : Vec Ideal S512x1024 .bf16) (a b : Fin 512) :
    out0_21 x0 x1 x2 x3 x4 x5 x6 x7 x8 x9 x10 x11 x12 x13 x14 x15 x16 x17 x18 x19 (ix2 a b)
      = cellBlk x0 x1 x2 x3 x4 x5 x6 x7 x8 x9 x10 x11 x12 x13 x14 x15 x16 x17 x18 x19 a b := by
  unfold out0_21
  rw [View.canon_unit_zero zero_offsets]
  simp only [View.ld_unit_zero (S := S512x1024) zero_offsets, View.ld_unit_zero (S := S512x2048) zero_offsets,
    View.ld_unit_zero (S := S512x512) zero_offsets, View.ld_unit_zero (S := S1x512) zero_offsets,
    pay3_eq, pay4_eq, pay5_eq, pay7_eq, pay8_eq, pay9_eq, pay10_eq]
  rw [pay1_apply, pay6_apply, pay11_apply, pay12_apply]
  rfl

/-- What the body leaves in the hidden output's buffer, at (a, b). -/
theorem hid_block (x0 : Vec Ideal S512x1024 .bf16) (x1 : Vec Ideal S512x2048 .bf16) (x2 : Vec Ideal S512x512 .f32) (x3 x4 : Vec Ideal S512x1024 .bf16) (x5 : Vec Ideal S1x512 .f32) (x6 : Vec Ideal S512x1024 .bf16) (x7 : Vec Ideal S1x512 .f32) (x8 : Vec Ideal S512x1024 .bf16) (x9 : Vec Ideal S1x512 .f32) (x10 : Vec Ideal S512x1024 .bf16) (x11 : Vec Ideal S1x512 .f32) (x12 x13 x14 x15 : Vec Ideal S512x2048 .bf16) (x16 x17 x18 x19 : Vec Ideal S512x1024 .bf16) (a b : Fin 512) :
    out0_20 x0 x1 x2 x3 x4 x5 x6 x7 x8 x9 x10 x11 x12 x13 x14 x15 x16 x17 x18 x19 (ix2 a b)
      = hidBlk x0 x1 x2 x3 x4 x5 x6 x7 x8 x9 x10 x11 x12 x13 x14 x15 x16 x17 x18 x19 a b := by
  unfold out0_20
  rw [View.canon_unit_zero zero_offsets]
  simp only [View.ld_unit_zero (S := S512x1024) zero_offsets, View.ld_unit_zero (S := S512x2048) zero_offsets,
    View.ld_unit_zero (S := S512x512) zero_offsets, View.ld_unit_zero (S := S1x512) zero_offsets,
    pay3_eq, pay4_eq, pay5_eq, pay7_eq, pay8_eq, pay9_eq, pay10_eq]
  rw [pay2_apply, pay6_apply, pay11_apply, pay12_apply, pay13_apply, pay14_apply]
  rfl

end Cert.KernelIdeal.Entry

end
-- ==== Proof.KernelValue.lean ====
/-
  The two result arrays of the vector unit's program, as functions of the twenty arguments.

  At a grid point the body stores the new hidden and the new cell tile. Entry (a, b) of either tile depends on row a of the
  activation blocks, row b of the weight blocks, bias entry b and the cell block's entry (a, b); read off the arguments
  these are row r of the activations, row j of the weight tables, bias entry j and the cell state at (r, j), where
  (r, j) is the array index under (a, b): r = batch tile · 512 + a, j = gate tile · 512 + b. So what the point writes back is
  its tile of the whole-array function. The 8 × 4 tiles cover the 4096 × 2048 array, so after the run each result array
  is that function.
-/
import proofs.«160803_j24790551232936_1_alg».proof.Proof.BlockReads
import proofs.«160803_j24790551232936_1_alg».proof.Proof.BlockOut

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Entry Cert.KernelIdeal.Staged Cert.LstmSpec

variable (m : (ℓ : Loc nD τ sig) → Buf (Elt Ideal) ℓ) (ρ : Dev nD → PrngReg)

/-- The new cell state as a function of the arguments in memory. -/
abbrev cellOf (c : Dev nD) : S4096x2048.Idx → EReal :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19))

/-- The new hidden state as a function of the arguments in memory. -/
abbrev hidOf (c : Dev nD) : S4096x2048.Idx → EReal :=
  hidArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19))

/-! ## One entry of a point's tile -/

/-- The new cell state at entry (a, b) of point t's tile is the whole-array function at the index under it. -/
theorem cell_point (c : Dev nD) (t : Fin cfg0.N) (a b : Fin 512) (i : S4096x2048.Idx)
    (h0 : win0_20.index t (0 : Fin 2) * 512 + a.val = (i 0).val) (h1 : win0_20.index t (1 : Fin 2) * 512 + b.val = (i 1).val) :
    cellBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) a b = cellOf m c i := by
  obtain ⟨a0, z0, a1, z1, a3, z3, c0, c1, -, -, -, -⟩ := act_idx t
  obtain ⟨w4, z4, w6, z6, w8, z8, -, -, w16, z16, w17, z17, w18, z18, -, -⟩ := weight_idx t
  obtain ⟨w12, z12, w13, z13, w14, z14, -, -, z5, b5, z7, b7, z9, b9, -, -⟩ := hidden_bias_idx t
  unfold cellBlk
  rw [rows_w0 m c t a (i 0) (by rw [a0]; exact h0) z0, rows_w1 m c t a (i 0) (by rw [a1]; exact h0) z1,
    rows_w3 m c t a (i 0) (by rw [a3]; exact h0) z3,
    rows_w4 m c t b (i 1) (by rw [w4]; exact h1) z4, rows_w6 m c t b (i 1) (by rw [w6]; exact h1) z6,
    rows_w8 m c t b (i 1) (by rw [w8]; exact h1) z8,
    rows_w12 m c t b (i 1) (by rw [w12]; exact h1) z12, rows_w13 m c t b (i 1) (by rw [w13]; exact h1) z13,
    rows_w14 m c t b (i 1) (by rw [w14]; exact h1) z14,
    rows_w16 m c t b (i 1) (by rw [w16]; exact h1) z16, rows_w17 m c t b (i 1) (by rw [w17]; exact h1) z17,
    rows_w18 m c t b (i 1) (by rw [w18]; exact h1) z18,
    bias_w5 m c t b (i 1) (by rw [b5]; exact h1) z5, bias_w7 m c t b (i 1) (by rw [b7]; exact h1) z7,
    bias_w9 m c t b (i 1) (by rw [b9]; exact h1) z9,
    cell_w2 m c t a b i (by rw [c0]; exact h0) (by rw [c1]; exact h1)]
  rfl

/-- The new hidden state at entry (a, b) of point t's tile is the whole-array function at the index under it. -/
theorem hid_point (c : Dev nD) (t : Fin cfg0.N) (a b : Fin 512) (i : S4096x2048.Idx)
    (h0 : win0_20.index t (0 : Fin 2) * 512 + a.val = (i 0).val) (h1 : win0_20.index t (1 : Fin 2) * 512 + b.val = (i 1).val) :
    hidBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) a b = hidOf m c i := by
  obtain ⟨a0, z0, a1, z1, a3, z3, -, -, -, -, -, -⟩ := act_idx t
  obtain ⟨-, -, -, -, -, -, w10, z10, -, -, -, -, -, -, w19, z19⟩ := weight_idx t
  obtain ⟨-, -, -, -, -, -, w15, z15, -, -, -, -, -, -, z11, b11⟩ := hidden_bias_idx t
  unfold hidBlk
  rw [cell_point m c t a b i h0 h1,
    rows_w0 m c t a (i 0) (by rw [a0]; exact h0) z0, rows_w1 m c t a (i 0) (by rw [a1]; exact h0) z1,
    rows_w3 m c t a (i 0) (by rw [a3]; exact h0) z3,
    rows_w10 m c t b (i 1) (by rw [w10]; exact h1) z10, rows_w15 m c t b (i 1) (by rw [w15]; exact h1) z15,
    rows_w19 m c t b (i 1) (by rw [w19]; exact h1) z19,
    bias_w11 m c t b (i 1) (by rw [b11]; exact h1) z11]
  rfl

/-! ## What a point writes back -/

theorem hid_flushed (c : Dev nD) (t : Fin cfg0.N) :
    (dats m 0 c).flushed 20 t = ((cfg0.win 20).blk t).view.read (Elt Ideal) (hidOf m c) := by
  rw [Value.flushed20]
  funext y
  obtain ⟨a, b, rfl⟩ : ∃ a b : Fin 512, y = ix2 a b := ⟨y 0, y 1, eq_ix2 y⟩
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 a b) = hidOf m c (((cfg0.win 20).blk t).view.emb (ix2 a b))
  refine (hid_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) a b).trans ?_
  exact hid_point m c t a b _
    (by show win0_20.index t (0 : Fin 2) * 512 + a.val = win0_20.index t (0 : Fin 2) * 512 + 1 * a.val; omega)
    (by show win0_20.index t (1 : Fin 2) * 512 + b.val = win0_20.index t (1 : Fin 2) * 512 + 1 * b.val; omega)

theorem cell_flushed (c : Dev nD) (t : Fin cfg0.N) :
    (dats m 0 c).flushed 21 t = ((cfg0.win 21).blk t).view.read (Elt Ideal) (cellOf m c) := by
  rw [Value.flushed21]
  funext y
  obtain ⟨a, b, rfl⟩ : ∃ a b : Fin 512, y = ix2 a b := ⟨y 0, y 1, eq_ix2 y⟩
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 a b) = cellOf m c (((cfg0.win 21).blk t).view.emb (ix2 a b))
  refine (cell_block (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) a b).trans ?_
  obtain ⟨-, -, -, -, -, -, -, -, o0, o1, -, -⟩ := act_idx t
  exact cell_point m c t a b _
    (by show win0_20.index t (0 : Fin 2) * 512 + a.val = win0_21.index t (0 : Fin 2) * 512 + 1 * a.val; omega)
    (by show win0_20.index t (1 : Fin 2) * 512 + b.val = win0_21.index t (1 : Fin 2) * 512 + 1 * b.val; omega)

/-! ## The tiles cover the arrays -/

theorem mem_tile20 (t : Fin cfg0.N) (i : S4096x2048.Idx) :
    i ∈ ((cfg0.win 20).blk t).view.set ↔ ∀ a : Fin 2, win0_20.index t a * S512x512.size a ≤ (i a).val
      ∧ (i a).val < win0_20.index t a * S512x512.size a + S512x512.size a := by
  show i ∈ ((View.whole main_v19_0).slice (win0_20.rect t)).set ↔ _
  rw [View.set_slice_whole, Rect.mem_set_unit]
  exact Iff.rfl

theorem mem_tile21 (t : Fin cfg0.N) (i : S4096x2048.Idx) :
    i ∈ ((cfg0.win 21).blk t).view.set ↔ ∀ a : Fin 2, win0_21.index t a * S512x512.size a ≤ (i a).val
      ∧ (i a).val < win0_21.index t a * S512x512.size a + S512x512.size a := by
  show i ∈ ((View.whole main_v19_1).slice (win0_21.rect t)).set ↔ _
  rw [View.set_slice_whole, Rect.mem_set_unit]
  exact Iff.rfl

/-- Index (r, j) lies in the tile of the point whose block is (r / 512, j / 512). -/
theorem covered20 (i : S4096x2048.Idx) :
    ∃ t : Fin cfg0.N, (cfg0.win 20).flush t = true ∧ i ∈ ((cfg0.win 20).blk t).view.set := by
  have hi0 : (i 0).val < 4096 := (i 0).isLt
  have hi1 : (i 1).val < 2048 := (i 1).isLt
  obtain ⟨t, ht⟩ := out_onto ⟨(i 0).val / 512, by omega⟩ ⟨(i 1).val / 512, by omega⟩
  have q0 : win0_20.index t (0 : Fin 2) = (i 0).val / 512 := congrFun ht 0
  have q1 : win0_20.index t (1 : Fin 2) = (i 1).val / 512 := congrFun ht 1
  refine ⟨t, flush0_20 t, ?_⟩
  rw [mem_tile20]
  intro a
  match a with
  | ⟨0, _⟩ => show win0_20.index t (0 : Fin 2) * 512 ≤ (i 0).val ∧ (i 0).val < win0_20.index t (0 : Fin 2) * 512 + 512; omega
  | ⟨1, _⟩ => show win0_20.index t (1 : Fin 2) * 512 ≤ (i 1).val ∧ (i 1).val < win0_20.index t (1 : Fin 2) * 512 + 512; omega

theorem covered21 (i : S4096x2048.Idx) :
    ∃ t : Fin cfg0.N, (cfg0.win 21).flush t = true ∧ i ∈ ((cfg0.win 21).blk t).view.set := by
  have hi0 : (i 0).val < 4096 := (i 0).isLt
  have hi1 : (i 1).val < 2048 := (i 1).isLt
  obtain ⟨t, ht⟩ := out_onto ⟨(i 0).val / 512, by omega⟩ ⟨(i 1).val / 512, by omega⟩
  have q0 : win0_20.index t (0 : Fin 2) = (i 0).val / 512 := congrFun ht 0
  have q1 : win0_20.index t (1 : Fin 2) = (i 1).val / 512 := congrFun ht 1
  obtain ⟨-, -, -, -, -, -, -, -, o0, o1, -, -⟩ := act_idx t
  refine ⟨t, flush0_21 t, ?_⟩
  rw [mem_tile21]
  intro a
  match a with
  | ⟨0, _⟩ => show win0_21.index t (0 : Fin 2) * 512 ≤ (i 0).val ∧ (i 0).val < win0_21.index t (0 : Fin 2) * 512 + 512; omega
  | ⟨1, _⟩ => show win0_21.index t (1 : Fin 2) * 512 ≤ (i 1).val ∧ (i 1).val < win0_21.index t (1 : Fin 2) * 512 + 512; omega

/-! ## The arrays after the run -/

theorem hid_final (c : Dev nD) : (dats m 0 c).arrAt 20 cfg0.N = hidOf m c :=
  (dats m 0 c).arrAt_eq_of_cover 20 (hidOf m c) (fun t _ => hid_flushed m c t) covered20

theorem cell_final (c : Dev nD) : (dats m 0 c).arrAt 21 cfg0.N = cellOf m c :=
  (dats m 0 c).arrAt_eq_of_cover 21 (cellOf m c) (fun t _ => cell_flushed m c t) covered21

/-- Every weakly fair execution of the program ends with the two result arrays at the new hidden and the new cell state
    of the arguments, the arguments unchanged. -/
theorem run : θ_run defs (onTc (τ := τ) (main (F := Ideal))) ⟨m, fun _ => 0, ρ⟩ fun r => ∀ c : Dev nD,
      r.2.mem ((c : Thread nD τ).loc main_v19_0) = hidOf m c
      ∧ r.2.mem ((c : Thread nD τ).loc main_v19_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h c).1.trans (hid_final m c), (h c).2.1.trans (cell_final m c), (h c).2.2⟩)
    (Value.run_blocks m ρ)

end Cert.KernelIdeal.Whole

end
-- ==== Proof.RefStack.lean ====
/-
  Four tables of one shape stacked along their rows, read at an entry.

  The reference stacks the four gates' weight tables (and the four bias vectors) into one table of 8192 rows (one vector of
  8192 entries). Row g · 2048 + j of the stack is row j of the g-th table: the pieces before it take up g · 2048 rows.
-/
import proofs.«160803_j24790551232936_1_alg».proof.Proof.Gen.ReferenceIdeal.Read
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Four 2048 × 1024 tables stacked: at row c and column k. -/
theorem stack_1024 (y0 y1 y2 y3 : S2048x1024.Idx → EReal) (j : Fin 2048) (k : Fin 1024) (c : Fin 8192) :
    (c.val = j.val → val_main_v0 (F := Ideal) y0 y1 y2 y3 (ix2 c k) = y0 (ix2 j k))
    ∧ (c.val = 2048 + j.val → val_main_v0 (F := Ideal) y0 y1 y2 y3 (ix2 c k) = y1 (ix2 j k))
    ∧ (c.val = 4096 + j.val → val_main_v0 (F := Ideal) y0 y1 y2 y3 (ix2 c k) = y2 (ix2 j k))
    ∧ (c.val = 6144 + j.val → val_main_v0 (F := Ideal) y0 y1 y2 y3 (ix2 c k) = y3 (ix2 j k)) := by
  unfold val_main_v0
  refine ⟨fun hc => ?_, fun hc => ?_, fun hc => ?_, fun hc => ?_⟩
  · exact concatenate_apply_piece 0 _ _ (ix2 c k) 0 (by simp) S2048x1024 y0 rfl rfl 0 rfl (ix2 j k)
      (fun b hb => match b with | ⟨0, _⟩ => absurd rfl hb | ⟨1, _⟩ => rfl) (by show 0 + j.val = c.val; omega)
  · exact concatenate_apply_piece 0 _ _ (ix2 c k) 1 (by simp) S2048x1024 y1 rfl rfl 2048 rfl (ix2 j k)
      (fun b hb => match b with | ⟨0, _⟩ => absurd rfl hb | ⟨1, _⟩ => rfl) (by show 2048 + j.val = c.val; omega)
  · exact concatenate_apply_piece 0 _ _ (ix2 c k) 2 (by simp) S2048x1024 y2 rfl rfl 4096 rfl (ix2 j k)
      (fun b hb => match b with | ⟨0, _⟩ => absurd rfl hb | ⟨1, _⟩ => rfl) (by show 4096 + j.val = c.val; omega)
  · exact concatenate_apply_piece 0 _ _ (ix2 c k) 3 (by simp) S2048x1024 y3 rfl rfl 6144 rfl (ix2 j k)
      (fun b hb => match b with | ⟨0, _⟩ => absurd rfl hb | ⟨1, _⟩ => rfl) (by show 6144 + j.val = c.val; omega)

/-- Four 2048 × 2048 tables stacked: at row c and column k. -/
theorem stack_2048 (y0 y1 y2 y3 : S2048x2048.Idx → EReal) (j : Fin 2048) (k : Fin 2048) (c : Fin 8192) :
    (c.val = j.val → val_main_v2 (F := Ideal) y0 y1 y2 y3 (ix2 c k) = y0 (ix2 j k))
    ∧ (c.val = 2048 + j.val → val_main_v2 (F := Ideal) y0 y1 y2 y3 (ix2 c k) = y1 (ix2 j k))
    ∧ (c.val = 4096 + j.val → val_main_v2 (F := Ideal) y0 y1 y2 y3 (ix2 c k) = y2 (ix2 j k))
    ∧ (c.val = 6144 + j.val → val_main_v2 (F := Ideal) y0 y1 y2 y3 (ix2 c k) = y3 (ix2 j k)) := by
  unfold val_main_v2
  refine ⟨fun hc => ?_, fun hc => ?_, fun hc => ?_, fun hc => ?_⟩
  · exact concatenate_apply_piece 0 _ _ (ix2 c k) 0 (by simp) S2048x2048 y0 rfl rfl 0 rfl (ix2 j k)
      (fun b hb => match b with | ⟨0, _⟩ => absurd rfl hb | ⟨1, _⟩ => rfl) (by show 0 + j.val = c.val; omega)
  · exact concatenate_apply_piece 0 _ _ (ix2 c k) 1 (by simp) S2048x2048 y1 rfl rfl 2048 rfl (ix2 j k)
      (fun b hb => match b with | ⟨0, _⟩ => absurd rfl hb | ⟨1, _⟩ => rfl) (by show 2048 + j.val = c.val; omega)
  · exact concatenate_apply_piece 0 _ _ (ix2 c k) 2 (by simp) S2048x2048 y2 rfl rfl 4096 rfl (ix2 j k)
      (fun b hb => match b with | ⟨0, _⟩ => absurd rfl hb | ⟨1, _⟩ => rfl) (by show 4096 + j.val = c.val; omega)
  · exact concatenate_apply_piece 0 _ _ (ix2 c k) 3 (by simp) S2048x2048 y3 rfl rfl 6144 rfl (ix2 j k)
      (fun b hb => match b with | ⟨0, _⟩ => absurd rfl hb | ⟨1, _⟩ => rfl) (by show 6144 + j.val = c.val; omega)

/-- Four vectors of 2048 entries stacked: at entry c. -/
theorem stack_vec (y0 y1 y2 y3 : S2048.Idx → EReal) (j : Fin 2048) (c : Fin 8192) :
    (c.val = j.val → val_main_v1 (F := Ideal) y0 y1 y2 y3 (ix1 c) = y0 (ix1 j))
    ∧ (c.val = 2048 + j.val → val_main_v1 (F := Ideal) y0 y1 y2 y3 (ix1 c) = y1 (ix1 j))
    ∧ (c.val = 4096 + j.val → val_main_v1 (F := Ideal) y0 y1 y2 y3 (ix1 c) = y2 (ix1 j))
    ∧ (c.val = 6144 + j.val → val_main_v1 (F := Ideal) y0 y1 y2 y3 (ix1 c) = y3 (ix1 j)) := by
  unfold val_main_v1
  refine ⟨fun hc => ?_, fun hc => ?_, fun hc => ?_, fun hc => ?_⟩
  · exact concatenate_apply_piece 0 _ _ (ix1 c) 0 (by simp) S2048 y0 rfl rfl 0 rfl (ix1 j)
      (fun b hb => match b with | ⟨0, _⟩ => absurd rfl hb) (by show 0 + j.val = c.val; omega)
  · exact concatenate_apply_piece 0 _ _ (ix1 c) 1 (by simp) S2048 y1 rfl rfl 2048 rfl (ix1 j)
      (fun b hb => match b with | ⟨0, _⟩ => absurd rfl hb) (by show 2048 + j.val = c.val; omega)
  · exact concatenate_apply_piece 0 _ _ (ix1 c) 2 (by simp) S2048 y2 rfl rfl 4096 rfl (ix1 j)
      (fun b hb => match b with | ⟨0, _⟩ => absurd rfl hb) (by show 4096 + j.val = c.val; omega)
  · exact concatenate_apply_piece 0 _ _ (ix1 c) 3 (by simp) S2048 y3 rfl rfl 6144 rfl (ix1 j)
      (fun b hb => match b with | ⟨0, _⟩ => absurd rfl hb) (by show 6144 + j.val = c.val; omega)

end Cert.ReferenceIdeal.RefValue

end
-- ==== Proof.RefGate.lean ====
/-
  The reference's pre-activations, entry by entry.

  The reference computes all four gates at once: the projected input times the transposed stack of the four projected-input
  weight tables, plus the stacked bias laid along the rows, plus the hidden state times the transposed stacked hidden
  weights, plus the external input times the transposed stacked external-input weights, a 4096 × 8192 table. Its entry
  (r, c) with c = g · 2048 + j is gate g's pre-activation at (r, j): the three products are sums over the shared axis, the
  stacked rows are rows of gate g's tables, and the order of adding (bias right after the first product) does not matter.
  The four gates are the four column ranges of 2048 the reference then cuts out.
-/
import proofs.«160803_j24790551232936_1_alg».proof.Proof.RefStack
import proofs.«160803_j24790551232936_1_alg».proof.Proof.LstmSpec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LstmSpec

/-- Entry (r, c) of the stacked pre-activation table, when row c of the three weight stacks is row j of the tables
    Wp, Wh, Wx and entry c of the bias stack is entry j of the bias b. -/
theorem gate_at (x0 : S4096x1024.Idx → EReal) (x1 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal)
    (Wp : S2048x1024.Idx → EReal) (Wh : S2048x2048.Idx → EReal) (Wx : S2048x1024.Idx → EReal) (bv : S2048.Idx → EReal)
    (r : Fin 4096) (j : Fin 2048) (c : Fin 8192)
    (hp : ∀ k : Fin 1024, val_main_v0 (F := Ideal) x4 x6 x8 x10 (ix2 c k) = Wp (ix2 j k))
    (hh : ∀ k : Fin 2048, val_main_v2 (F := Ideal) x12 x13 x14 x15 (ix2 c k) = Wh (ix2 j k))
    (hx : ∀ k : Fin 1024, val_main_v3 (F := Ideal) x16 x17 x18 x19 (ix2 c k) = Wx (ix2 j k))
    (hb : val_main_v1 (F := Ideal) x5 x7 x9 x11 (ix1 c) = bv (ix1 j)) :
    val_main_v14 (F := Ideal) x0 x1 x3 x4 x5 x6 x7 x8 x9 x10 x11 x12 x13 x14 x15 x16 x17 x18 x19 (ix2 r c) = preArr x0 x1 x3 Wp Wh Wx bv (ix2 r j) := by
  rw [val_main_v14_apply, val_main_v11_apply, val_main_v8_apply, val_main_v5_apply, val_main_v10_apply, val_main_v13_apply,
    val_main_v7_apply, val_main_v6_apply]
  simp only [val_main_v4_apply, val_main_v9_apply, val_main_v12_apply]
  have e5l : ∀ k : Fin 1024, lidx_main_v5 (ix2 r c) k = ix2 r k := fun k =>
    funext fun a => Fin.ext (by match a with | ⟨0, _⟩ => rfl | ⟨1, _⟩ => rfl)
  have e5r : ∀ k : Fin 1024, idx_main_v4 (ridx_main_v5 (ix2 r c) k) = ix2 c k := fun k =>
    funext fun a => Fin.ext (by match a with | ⟨0, _⟩ => rfl | ⟨1, _⟩ => rfl)
  have e10l : ∀ k : Fin 2048, lidx_main_v10 (ix2 r c) k = ix2 r k := fun k =>
    funext fun a => Fin.ext (by match a with | ⟨0, _⟩ => rfl | ⟨1, _⟩ => rfl)
  have e10r : ∀ k : Fin 2048, idx_main_v9 (ridx_main_v10 (ix2 r c) k) = ix2 c k := fun k =>
    funext fun a => Fin.ext (by match a with | ⟨0, _⟩ => rfl | ⟨1, _⟩ => rfl)
  have e13l : ∀ k : Fin 1024, lidx_main_v13 (ix2 r c) k = ix2 r k := fun k =>
    funext fun a => Fin.ext (by match a with | ⟨0, _⟩ => rfl | ⟨1, _⟩ => rfl)
  have e13r : ∀ k : Fin 1024, idx_main_v12 (ridx_main_v13 (ix2 r c) k) = ix2 c k := fun k =>
    funext fun a => Fin.ext (by match a with | ⟨0, _⟩ => rfl | ⟨1, _⟩ => rfl)
  have e7 : idx_main_v6 (idx_main_v7 (ix2 r c)) = ix1 c :=
    funext fun a => Fin.ext (by match a with | ⟨0, _⟩ => rfl)
  simp only [e5l, e5r, e10l, e10r, e13l, e13r, e7, hp, hh, hx, hb]
  exact pre_bias_second (row x0 r) (row Wp j) (row x1 r) (row Wh j) (row x3 r) (row Wx j) (bv (ix1 j))

end Cert.ReferenceIdeal.RefValue

end
-- ==== Proof.RefValue.lean ====
/-
  The reference's two results are the new hidden state and the new cell state of the specification.

  The reference cuts the stacked pre-activation table into the input, forget, candidate and output gates' column ranges
  (offsets 0, 2048, 4096, 6144), applies the logistic function spelt as 1 / (1 + exp (-x)) to three of them and tanh to the
  candidate, and forms  c_new = σ(f)·c + σ(i)·tanh(g)  and  h_new = σ(o)·tanh(c_new).  Each column range of the stack is
  that gate's pre-activation, the spelt-out logistic is the logistic function on every extended real, so entry by entry
  the two results are the specification's.
-/
import proofs.«160803_j24790551232936_1_alg».proof.Proof.RefGate

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LstmSpec

/-- The host's divide, add, exponential and negate, with the word for one, are the logistic function. -/
theorem sigmoid_spelt (g : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf g)))
      = Ideal.logistic g :=
  logistic_spelt g

/-! ## The four column ranges -/

/-- Columns 0 … 2047: the input gate. -/
theorem gate_i (x0 : S4096x1024.Idx → EReal) (x1 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) (r : Fin 4096) (j : Fin 2048) :
    val_main_v15 (F := Ideal) x0 x1 x3 x4 x5 x6 x7 x8 x9 x10 x11 x12 x13 x14 x15 x16 x17 x18 x19 (ix2 r j) = preArr x0 x1 x3 x4 x12 x16 x5 (ix2 r j) := by
  rw [val_main_v15_apply]
  have e : idx_main_v15 (ix2 r j) = ix2 r (⟨j.val, by have := j.isLt; omega⟩ : Fin 8192) :=
    funext fun a => Fin.ext (by match a with | ⟨0, _⟩ => rfl | ⟨1, _⟩ => rfl)
  rw [e]
  exact gate_at x0 x1 x3 x4 x5 x6 x7 x8 x9 x10 x11 x12 x13 x14 x15 x16 x17 x18 x19 x4 x12 x16 x5 r j _
    (fun k => (stack_1024 x4 x6 x8 x10 j k _).1 rfl) (fun k => (stack_2048 x12 x13 x14 x15 j k _).1 rfl)
    (fun k => (stack_1024 x16 x17 x18 x19 j k _).1 rfl) ((stack_vec x5 x7 x9 x11 j _).1 rfl)

/-- Columns 2048 … 4095: the forget gate. -/
theorem gate_f (x0 : S4096x1024.Idx → EReal) (x1 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) (r : Fin 4096) (j : Fin 2048) :
    val_main_v16 (F := Ideal) x0 x1 x3 x4 x5 x6 x7 x8 x9 x10 x11 x12 x13 x14 x15 x16 x17 x18 x19 (ix2 r j) = preArr x0 x1 x3 x6 x13 x17 x7 (ix2 r j) := by
  rw [val_main_v16_apply]
  have e : idx_main_v16 (ix2 r j) = ix2 r (⟨2048 + j.val, by have := j.isLt; omega⟩ : Fin 8192) :=
    funext fun a => Fin.ext (by match a with | ⟨0, _⟩ => rfl | ⟨1, _⟩ => rfl)
  rw [e]
  exact gate_at x0 x1 x3 x4 x5 x6 x7 x8 x9 x10 x11 x12 x13 x14 x15 x16 x17 x18 x19 x6 x13 x17 x7 r j _
    (fun k => (stack_1024 x4 x6 x8 x10 j k _).2.1 rfl) (fun k => (stack_2048 x12 x13 x14 x15 j k _).2.1 rfl)
    (fun k => (stack_1024 x16 x17 x18 x19 j k _).2.1 rfl) ((stack_vec x5 x7 x9 x11 j _).2.1 rfl)

/-- Columns 4096 … 6143: the candidate. -/
theorem gate_g (x0 : S4096x1024.Idx → EReal) (x1 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) (r : Fin 4096) (j : Fin 2048) :
    val_main_v17 (F := Ideal) x0 x1 x3 x4 x5 x6 x7 x8 x9 x10 x11 x12 x13 x14 x15 x16 x17 x18 x19 (ix2 r j) = preArr x0 x1 x3 x8 x14 x18 x9 (ix2 r j) := by
  rw [val_main_v17_apply]
  have e : idx_main_v17 (ix2 r j) = ix2 r (⟨4096 + j.val, by have := j.isLt; omega⟩ : Fin 8192) :=
    funext fun a => Fin.ext (by match a with | ⟨0, _⟩ => rfl | ⟨1, _⟩ => rfl)
  rw [e]
  exact gate_at x0 x1 x3 x4 x5 x6 x7 x8 x9 x10 x11 x12 x13 x14 x15 x16 x17 x18 x19 x8 x14 x18 x9 r j _
    (fun k => (stack_1024 x4 x6 x8 x10 j k _).2.2.1 rfl) (fun k => (stack_2048 x12 x13 x14 x15 j k _).2.2.1 rfl)
    (fun k => (stack_1024 x16 x17 x18 x19 j k _).2.2.1 rfl) ((stack_vec x5 x7 x9 x11 j _).2.2.1 rfl)

/-- Columns 6144 … 8191: the output gate. -/
theorem gate_o (x0 : S4096x1024.Idx → EReal) (x1 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) (r : Fin 4096) (j : Fin 2048) :
    val_main_v18 (F := Ideal) x0 x1 x3 x4 x5 x6 x7 x8 x9 x10 x11 x12 x13 x14 x15 x16 x17 x18 x19 (ix2 r j) = preArr x0 x1 x3 x10 x15 x19 x11 (ix2 r j) := by
  rw [val_main_v18_apply]
  have e : idx_main_v18 (ix2 r j) = ix2 r (⟨6144 + j.val, by have := j.isLt; omega⟩ : Fin 8192) :=
    funext fun a => Fin.ext (by match a with | ⟨0, _⟩ => rfl | ⟨1, _⟩ => rfl)
  rw [e]
  exact gate_at x0 x1 x3 x4 x5 x6 x7 x8 x9 x10 x11 x12 x13 x14 x15 x16 x17 x18 x19 x10 x15 x19 x11 r j _
    (fun k => (stack_1024 x4 x6 x8 x10 j k _).2.2.2 rfl) (fun k => (stack_2048 x12 x13 x14 x15 j k _).2.2.2 rfl)
    (fun k => (stack_1024 x16 x17 x18 x19 j k _).2.2.2 rfl) ((stack_vec x5 x7 x9 x11 j _).2.2.2 rfl)

/-! ## The two results -/

/-- The reference's second result is the new cell state. -/
theorem cell_eq (x0 : S4096x1024.Idx → EReal) (x1 x2 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) :
    val_main_v40 (F := Ideal) x0 x1 x2 x3 x4 x5 x6 x7 x8 x9 x10 x11 x12 x13 x14 x15 x16 x17 x18 x19 = cellArr x0 x1 x2 x3 x4 x5 x6 x7 x8 x9 x10 x11 x12 x13 x14 x15 x16 x17 x18 x19 := by
  funext i
  obtain ⟨r, j, rfl⟩ : ∃ (r : Fin 4096) (j : Fin 2048), i = ix2 r j := ⟨i 0, i 1, eq_ix2 i⟩
  simp only [val_main_v40_apply, val_main_v39_apply, val_main_v38_apply, val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply,
    val_main_cst_apply, val_main_cst_0_apply, val_main_cst_1_apply, val_main_cst_2_apply]
  rw [gate_i x0 x1 x3 x4 x5 x6 x7 x8 x9 x10 x11 x12 x13 x14 x15 x16 x17 x18 x19 r j, gate_f x0 x1 x3 x4 x5 x6 x7 x8 x9 x10 x11 x12 x13 x14 x15 x16 x17 x18 x19 r j, gate_g x0 x1 x3 x4 x5 x6 x7 x8 x9 x10 x11 x12 x13 x14 x15 x16 x17 x18 x19 r j]
  simp only [sigmoid_spelt]
  rfl

/-- The reference's first result is the new hidden state. -/
theorem hid_eq (x0 : S4096x1024.Idx → EReal) (x1 x2 : S4096x2048.Idx → EReal) (x3 : S4096x1024.Idx → EReal) (x4 : S2048x1024.Idx → EReal) (x5 : S2048.Idx → EReal) (x6 : S2048x1024.Idx → EReal) (x7 : S2048.Idx → EReal) (x8 : S2048x1024.Idx → EReal) (x9 : S2048.Idx → EReal) (x10 : S2048x1024.Idx → EReal) (x11 : S2048.Idx → EReal) (x12 x13 x14 x15 : S2048x2048.Idx → EReal) (x16 x17 x18 x19 : S2048x1024.Idx → EReal) :
    val_main_v42 (F := Ideal) x0 x1 x2 x3 x4 x5 x6 x7 x8 x9 x10 x11 x12 x13 x14 x15 x16 x17 x18 x19 = hidArr x0 x1 x2 x3 x4 x5 x6 x7 x8 x9 x10 x11 x12 x13 x14 x15 x16 x17 x18 x19 := by
  funext i
  obtain ⟨r, j, rfl⟩ : ∃ (r : Fin 4096) (j : Fin 2048), i = ix2 r j := ⟨i 0, i 1, eq_ix2 i⟩
  simp only [val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply,
    val_main_v29_apply, val_main_v28_apply, val_main_v27_apply, val_main_v26_apply, val_main_v25_apply, val_main_v24_apply,
    val_main_v23_apply, val_main_v22_apply, val_main_v21_apply, val_main_v20_apply, val_main_v19_apply,
    val_main_cst_apply, val_main_cst_0_apply, val_main_cst_1_apply, val_main_cst_2_apply, val_main_cst_3_apply,
    val_main_cst_4_apply]
  rw [gate_i x0 x1 x3 x4 x5 x6 x7 x8 x9 x10 x11 x12 x13 x14 x15 x16 x17 x18 x19 r j, gate_f x0 x1 x3 x4 x5 x6 x7 x8 x9 x10 x11 x12 x13 x14 x15 x16 x17 x18 x19 r j, gate_g x0 x1 x3 x4 x5 x6 x7 x8 x9 x10 x11 x12 x13 x14 x15 x16 x17 x18 x19 r j, gate_o x0 x1 x3 x4 x5 x6 x7 x8 x9 x10 x11 x12 x13 x14 x15 x16 x17 x18 x19 r j]
  simp only [sigmoid_spelt]
  rfl

end Cert.ReferenceIdeal.RefValue

end
-- ==== Proof.lean ====
/-
  One step of a long short-term memory cell: the tiled vector-unit program against the whole-table host program, on the
  extended reals.

  Both programs take the projected input P (4096 × 1024), the hidden state (4096 × 2048), the cell state (4096 × 2048),
  the external input (4096 × 1024), and for each of the input, forget, candidate and output gates a 2048 × 1024 weight
  table with a bias of 2048 entries for P, a 2048 × 2048 weight table for the hidden state and a 2048 × 1024 weight table
  for the external input. A gate's pre-activation at (r, j) is

      Σ_k P(r,k)·Wp(j,k) + Σ_k h(r,k)·Wh(j,k) + Σ_k x(r,k)·Wx(j,k) + b(j),

  the new cell state is  σ(f)·c + σ(i)·tanh(g)  and the new hidden state  σ(o)·tanh(c_new),  σ the logistic function.

  The vector-unit program works on 512 × 512 tiles over a grid of 4 gate tiles by 8 batch tiles; for each tile it
  multiplies the batch tile's rows of P, h, x against the gate tile's rows of each weight table (a product against a
  transposed block), adds the three products and then the bias tile, and stores both result tiles whole. The narrowing
  of the operands' float format the host does before the call is the identity on the extended reals. The host program
  stacks the four gates' tables into tables of 8192 rows, forms the 4096 × 8192 table of all pre-activations adding the
  bias right after the first product, cuts it into the four column ranges, and spells the logistic function as
  1 / (1 + exp (-x)).

  The two agree entry by entry: every tile entry is the whole-array entry under it and the tiles cover the arrays; a row
  of a stack is a row of one gate's table; the two orders of adding four extended reals agree because addition is
  commutative and associative; and the logistic function is by definition 1 / (1 + exp (-x)) with the extended reals'
  division and exponential, at the infinities too. No finiteness of the inputs is used for the values.

  The three programs' frames: the two tiled programs by their launch proofs; the host program runs to its composed
  term, and its frame is that run with the results dropped. The idealization rewrote no operation, so the statement
  that it preserves the printed program has no entries.
-/
import proofs.«160803_j24790551232936_1_alg».proof.Defs
import proofs.«160803_j24790551232936_1_alg».proof.Proof.Gen.Kernel
import proofs.«160803_j24790551232936_1_alg».proof.Proof.Gen.Kernel.Skeleton
import proofs.«160803_j24790551232936_1_alg».proof.Proof.Gen.Kernel.Launch
import proofs.«160803_j24790551232936_1_alg».proof.Proof.Gen.Kernel.Points
import proofs.«160803_j24790551232936_1_alg».proof.Proof.Gen.Kernel.Frame
import proofs.«160803_j24790551232936_1_alg».proof.Proof.Gen.KernelIdeal
import proofs.«160803_j24790551232936_1_alg».proof.Proof.Gen.KernelIdeal.Skeleton
import proofs.«160803_j24790551232936_1_alg».proof.Proof.Gen.KernelIdeal.Launch
import proofs.«160803_j24790551232936_1_alg».proof.Proof.Gen.KernelIdeal.Points
import proofs.«160803_j24790551232936_1_alg».proof.Proof.Gen.KernelIdeal.Frame
import proofs.«160803_j24790551232936_1_alg».proof.Proof.Gen.ReferenceIdeal
import proofs.«160803_j24790551232936_1_alg».proof.Proof.Gen.Pre_finite_inputs
import proofs.«160803_j24790551232936_1_alg».proof.Proof.Gen.KernelIdeal.Value
import proofs.«160803_j24790551232936_1_alg».proof.Proof.Gen.ReferenceIdeal.Run
import proofs.«160803_j24790551232936_1_alg».proof.Proof.Gen.ReferenceIdeal.Read
import proofs.«160803_j24790551232936_1_alg».proof.Proof.KernelValue
import proofs.«160803_j24790551232936_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The host program's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- The new hidden state depends only on the twenty arguments. -/
theorem hid_of_equal_args {x0 y0 : (⟨2, ![4096, 1024]⟩ : Shape).Idx → EReal} {x1 y1 x2 y2 : (⟨2, ![4096, 2048]⟩ : Shape).Idx → EReal} {x3 y3 : (⟨2, ![4096, 1024]⟩ : Shape).Idx → EReal}
    {x4 y4 : (⟨2, ![2048, 1024]⟩ : Shape).Idx → EReal} {x5 y5 : (⟨1, ![2048]⟩ : Shape).Idx → EReal} {x6 y6 : (⟨2, ![2048, 1024]⟩ : Shape).Idx → EReal} {x7 y7 : (⟨1, ![2048]⟩ : Shape).Idx → EReal}
    {x8 y8 : (⟨2, ![2048, 1024]⟩ : Shape).Idx → EReal} {x9 y9 : (⟨1, ![2048]⟩ : Shape).Idx → EReal} {x10 y10 : (⟨2, ![2048, 1024]⟩ : Shape).Idx → EReal} {x11 y11 : (⟨1, ![2048]⟩ : Shape).Idx → EReal}
    {x12 y12 x13 y13 x14 y14 x15 y15 : (⟨2, ![2048, 2048]⟩ : Shape).Idx → EReal} {x16 y16 x17 y17 x18 y18 x19 y19 : (⟨2, ![2048, 1024]⟩ : Shape).Idx → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) :
    Cert.LstmSpec.hidArr x0 x1 x2 x3 x4 x5 x6 x7 x8 x9 x10 x11 x12 x13 x14 x15 x16 x17 x18 x19 = Cert.LstmSpec.hidArr y0 y1 y2 y3 y4 y5 y6 y7 y8 y9 y10 y11 y12 y13 y14 y15 y16 y17 y18 y19 := by
  subst e0 e1 e2 e3 e4 e5 e6 e7 e8 e9 e10 e11 e12 e13 e14 e15 e16 e17 e18 e19
  rfl

/-- The new cell state depends only on the twenty arguments. -/
theorem cell_of_equal_args {x0 y0 : (⟨2, ![4096, 1024]⟩ : Shape).Idx → EReal} {x1 y1 x2 y2 : (⟨2, ![4096, 2048]⟩ : Shape).Idx → EReal} {x3 y3 : (⟨2, ![4096, 1024]⟩ : Shape).Idx → EReal}
    {x4 y4 : (⟨2, ![2048, 1024]⟩ : Shape).Idx → EReal} {x5 y5 : (⟨1, ![2048]⟩ : Shape).Idx → EReal} {x6 y6 : (⟨2, ![2048, 1024]⟩ : Shape).Idx → EReal} {x7 y7 : (⟨1, ![2048]⟩ : Shape).Idx → EReal}
    {x8 y8 : (⟨2, ![2048, 1024]⟩ : Shape).Idx → EReal} {x9 y9 : (⟨1, ![2048]⟩ : Shape).Idx → EReal} {x10 y10 : (⟨2, ![2048, 1024]⟩ : Shape).Idx → EReal} {x11 y11 : (⟨1, ![2048]⟩ : Shape).Idx → EReal}
    {x12 y12 x13 y13 x14 y14 x15 y15 : (⟨2, ![2048, 2048]⟩ : Shape).Idx → EReal} {x16 y16 x17 y17 x18 y18 x19 y19 : (⟨2, ![2048, 1024]⟩ : Shape).Idx → EReal}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) :
    Cert.LstmSpec.cellArr x0 x1 x2 x3 x4 x5 x6 x7 x8 x9 x10 x11 x12 x13 x14 x15 x16 x17 x18 x19 = Cert.LstmSpec.cellArr y0 y1 y2 y3 y4 y5 y6 y7 y8 y9 y10 y11 y12 y13 y14 y15 y16 y17 y18 y19 := by
  subst e0 e1 e2 e3 e4 e5 e6 e7 e8 e9 e10 e11 e12 e13 e14 e15 e16 e17 e18 e19
  rfl

/-- From memories that agree on the twenty arguments both programs end with the new hidden state and the new cell state
    of those arguments, entry by entry equal as extended reals. -/
theorem algebraic : Cert.algebraic_KernelIdeal_ReferenceIdeal := by
  intro m ρ m' ρ' _ hagree
  refine ⟨fun c => Cert.KernelIdeal.Whole.hidOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18, h19⟩ := hagree c
    rw [Cert.ReferenceIdeal.Read.val_main_v42_eq, Cert.ReferenceIdeal.RefValue.hid_eq]
    exact hid_of_equal_args h0 h1 h2 h3 h4 h5 h6 h7 h8 h9 h10 h11 h12 h13 h14 h15 h16 h17 h18 h19
  · obtain ⟨h0, h1, h2, h3, h4, h5, h6, h7, h8, h9, h10, h11, h12, h13, h14, h15, h16, h17, h18, h19⟩ := hagree c
    rw [Cert.ReferenceIdeal.Read.val_main_v40_eq, Cert.ReferenceIdeal.RefValue.cell_eq]
    exact cell_of_equal_args h0 h1 h2 h3 h4 h5 h6 h7 h8 h9 h10 h11 h12 h13 h14 h15 h16 h17 h18 h19

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
